-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S100000x384 : S_.BroadcastsInDim S100000x384 (![] : Fin 0 → Fin S100000x384.rank)
  reducesTo_S100000x384_S_d0_1 : S100000x384.ReducesTo [0, 1] S_
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S128x64 : S_.BroadcastsInDim S128x64 (![] : Fin 0 → Fin S128x64.rank)
  reducesTo_S128x64_S_d0_1 : S128x64.ReducesTo [0, 1] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S64 .f32) (main_arg9 : FVec F S64x7 .f32) (main_arg10 : FVec F S7 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x7 .f32 := Host.absf main_arg9
  let main_cst_14 : FVec F S_ .f32 := constant S_ .f32 0x7F800000#32
  let main_v40 : FVec F S64x7 .f32 := broadcastInDim S64x7 ![] bcast_S_S64x7 main_cst_14
  let main_v41 : IVec S64x7 1 := cmpf .olt main_v39 main_v40
  let main_c_15 : IVec S_ 1 := constantI S_ 1 1#1
  let main_v42 : IVec S_ 1 := (fun x v => Host.reduce IntOp.andi x v reducesTo_S64x7_S_d0_1 h_S_) main_v41 main_c_15
  let main_v43 : IVec S_ 1 := andi main_v38 main_v42
  let main_v44 : FVec F S7 .f32 := Host.absf main_arg10
  let main_cst_16 : FVec F S_ .f32 := constant S_ .f32 0x7F800000#32
  let main_v45 : FVec F S7 .f32 := broadcastInDim S7 ![] bcast_S_S7 main_cst_16
  let main_v46 : IVec S7 1 := cmpf .olt main_v44 main_v45
  let main_c_17 : IVec S_ 1 := constantI S_ 1 1#1
  let main_v47 : IVec S_ 1 := (fun x v => Host.reduce IntOp.andi x v reducesTo_S7_S_d0 h_S_) main_v46 main_c_17
  let main_v48 : IVec S_ 1 := andi main_v43 main_v47
  main_v48

def fn_part1 {F : FTy → Type} [FloatOps F] (main_arg5 : FVec F S384x64 .f32) (main_arg6 : FVec F S64 .f32) (main_arg7 : FVec F S128x64 .f32) (main_arg8 : FVec F S64 .f32) (main_arg9 : FVec F S64x7 .f32) (main_arg10 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S384x64 .f32 := Host.absf main_arg5
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x500 .f32) (main_arg1 : FVec F S100000x384 .f32) (main_arg2 : IVec S2x1280000 32) (main_arg3 : FVec F S500x64 .f32) (main_arg4 : FVec F S64 .f32) (main_arg5 : FVec F S384x64 .f32) (main_arg6 : FVec F S64 .f32) (main_arg7 : FVec F S128x64 .f32) (main_arg8 : FVec F S64 .f32) (main_arg9 : FVec F S64x7 .f32) (main_arg10 : FVec F S7 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S100000x384 .f32 := Host.absf main_arg1
  let main_cst_0 : FVec F S_ .f32 := constant S_ .f32 0x7F800000#32
  let main_v5 : FVec F S100000x384 .f32 := broadcastInDim S100000x384 ![] bcast_S_S100000x384 main_cst_0
  let main_v6 : IVec S100000x384 1 := cmpf .olt main_v4 main_v5
  let main_c_1 : IVec S_ 1 := constantI S_ 1 1#1
  let main_v7 : IVec S_ 1 := (fun x v => Host.reduce IntOp.andi x v reducesTo_S100000x384_S_d0_1 h_S_) main_v6 main_c_1
  let main_v8 : IVec S_ 1 := andi main_v3 main_v7
  let main_v9 : FVec F S500x64 .f32 := Host.absf main_arg3
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S1x1280000 : Shape := ⟨2, ![1, 1280000]⟩
abbrev S1280000 : Shape := ⟨1, ![1280000]⟩
abbrev S64x64 : Shape := ⟨2, ![64, 64]⟩
abbrev S1x64 : Shape := ⟨2, ![1, 64]⟩
abbrev S100000x64 : Shape := ⟨2, ![100000, 64]⟩
abbrev S2000x500 : Shape := ⟨2, ![2000, 500]⟩
abbrev S2000x384 : Shape := ⟨2, ![2000, 384]⟩
abbrev S2000x64 : Shape := ⟨2, ![2000, 64]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S100000x1 : Shape := ⟨2, ![100000, 1]⟩
abbrev S100000x7 : Shape := ⟨2, ![100000, 7]⟩
abbrev S2000x7 : Shape := ⟨2, ![2000, 7]⟩
abbrev S1280000x7 : Shape := ⟨2, ![1280000, 7]⟩
abbrev S1x7 : Shape := ⟨2, ![1, 7]⟩

abbrev nBuf : Space → Nat
  | .hbm => 105
  | .vmem => 15
  | .smem => 0
  | _ => 0

abbrev bufTy : (tb : Table) → Fin (tcTables nBuf tb) → BufTy
  | .hbm, ⟨0, _⟩ => ⟨S100000x500, .f32⟩
  | .hbm, ⟨1, _⟩ => ⟨S100000x384, .f32⟩
  | .hbm, ⟨2, _⟩ => ⟨S2x1280000, .i32⟩
  | .hbm, ⟨3, _⟩ => ⟨S500x64, .f32⟩
  | .hbm, ⟨4, _⟩ => ⟨S64, .f32⟩
  | .hbm, ⟨5, _⟩ => ⟨S384x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x7, .f32⟩
  | .hbm, ⟨10, _⟩ => ⟨S7, .f32⟩
  | .hbm, ⟨11, _⟩ => ⟨S1x1280000, .i32⟩
  | .hbm, ⟨12, _⟩ => ⟨S1280000, .i32⟩
  | .hbm, ⟨13, _⟩ => ⟨S1x1280000, .i32⟩
  | .hbm, ⟨14, _⟩ => ⟨S1280000, .i32⟩
  | .hbm, ⟨15, _⟩ => ⟨S64x64, .f32⟩
  | .hbm, ⟨16, _⟩ => ⟨S64x64, .f32⟩
  | .hbm, ⟨17, _⟩ => ⟨S500x64, .f32⟩
  | .hbm, ⟨18, _⟩ => ⟨S384x64, .f32⟩
  | .hbm, ⟨19, _⟩ => ⟨S1x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S100000x64, .f32⟩
  | .hbm, ⟨28, _⟩ => ⟨S_, .f32⟩
  | .hbm, ⟨29, _⟩ => ⟨S1280000, .f32⟩
  | .hbm, ⟨30, _⟩ => ⟨S_, .f32⟩
  | .hbm, ⟨31, _⟩ => ⟨S100000, .f32⟩
  | .hbm, ⟨32, _⟩ => ⟨S1280000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000, .f32⟩
  | .hbm, ⟨49, _⟩ => ⟨S_, .i32⟩
  | .hbm, ⟨50, _⟩ => ⟨S1280000, .i32⟩
  | .hbm, ⟨51, _⟩ => ⟨S1280000, .i1⟩
  | .hbm, ⟨52, _⟩ => ⟨S_, .i32⟩
  | .hbm, ⟨53, _⟩ => ⟨S1280000, .i32⟩
  | .hbm, ⟨54, _⟩ => ⟨S1280000, .i32⟩
  | .hbm, ⟨55, _⟩ => ⟨S1280000, .i32⟩
  | .hbm, ⟨56, _⟩ => ⟨S1280000x1, .i32⟩
  | .hbm, ⟨57, _⟩ => ⟨S1280000, .f32⟩
  | .hbm, ⟨58, _⟩ => ⟨S1280000, .f32⟩
  | .hbm, ⟨59, _⟩ => ⟨S100000, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S1280000x1, .f32⟩
  | .hbm, ⟨70, _⟩ => ⟨S1280000x64, .f32⟩
  | .hbm, ⟨71, _⟩ => ⟨S1280000x64, .f32⟩
  | .hbm, ⟨72, _⟩ => ⟨S_, .f32⟩
  | .hbm, ⟨73, _⟩ => ⟨S100000x64, .f32⟩
  | .hbm, ⟨74, _⟩ => ⟨S1280000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x7, .f32⟩
  | .hbm, ⟨82, _⟩ => ⟨S_, .i32⟩
  | .hbm, ⟨83, _⟩ => ⟨S1280000, .i32⟩
  | .hbm, ⟨84, _⟩ => ⟨S1280000, .i1⟩
  | .hbm, ⟨85, _⟩ => ⟨S_, .i32⟩
  | .hbm, ⟨86, _⟩ => ⟨S1280000, .i32⟩
  | .hbm, ⟨87, _⟩ => ⟨S1280000, .i32⟩
  | .hbm, ⟨88, _⟩ => ⟨S1280000, .i32⟩
  | .hbm, ⟨89, _⟩ => ⟨S1280000x1, .i32⟩
  | .hbm, ⟨90, _⟩ => ⟨S1280000x7, .f32⟩
  | .hbm, ⟨91, _⟩ => ⟨S1280000x1, .f32⟩
  | .hbm, ⟨92, _⟩ => ⟨S1280000x7, .f32⟩
  | .hbm, ⟨93, _⟩ => ⟨S1280000x7, .f32⟩
  | .hbm, ⟨94, _⟩ => ⟨S_, .f32⟩
  | .hbm, ⟨95, _⟩ => ⟨S100000x7, .f32⟩
  | .hbm, ⟨96, _⟩ => ⟨S1280000x1, .i32⟩
  | .hbm, ⟨97, _⟩ => ⟨S100000x7, .f32⟩
  | .hbm, ⟨98, _⟩ => ⟨S100000x1, .f32⟩
  | .hbm, ⟨99, _⟩ => ⟨S100000x7, .f32⟩
  | .hbm, ⟨100, _⟩ => ⟨S100000x7, .f32⟩
  | .hbm, ⟨101, _⟩ => ⟨S100000x7, .f32⟩
  | .hbm, ⟨102, _⟩ => ⟨S1x7, .f32⟩
  | .hbm, ⟨103, _⟩ => ⟨S100000x7, .f32⟩
  | .hbm, ⟨104, _⟩ => ⟨S100000x7, .f32⟩
  | .local _ .vmem, ⟨0, _⟩ => ⟨S2000x500, .f32⟩
  | .local _ .vmem, ⟨1, _⟩ => ⟨S2000x500, .f32⟩
  | .local _ .vmem, ⟨2, _⟩ => ⟨S2000x384, .f32⟩
  | .local _ .vmem, ⟨3, _⟩ => ⟨S2000x384, .f32⟩
  | .local _ .vmem, ⟨4, _⟩ => ⟨S500x64, .f32⟩
  | .local _ .vmem, ⟨5, _⟩ => ⟨S384x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S64x7, .f32⟩
  | .local _ .vmem, ⟨13, _⟩ => ⟨S2000x7, .f32⟩
  | .local _ .vmem, ⟨14, _⟩ => ⟨S2000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S500x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  slices_S128x64_S64x64_0_0 : S128x64.Slices ![0, 0] S64x64
  slices_S128x64_S64x64_64_0 : S128x64.Slices ![64, 0] S64x64
  bcast_S64_S1x64_1 : S64.BroadcastsInDim S1x64 (![1] : Fin 1 → Fin S1x64.rank)
  shapeCasts_S1x64_S64 : S1x64.ShapeCasts S64
  shapeCasts_S64_S1x64 : S64.ShapeCasts S1x64
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S2000x384_S2000x384_0_0 : ∀ a, (![0, 0] : Fin 2 → Nat) a + S2000x384.size a ≤ S2000x384.size a
  h_S2000x384 : 0 < S2000x384.numel
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S2000x64_S2000x64 : S2000x64.ShapeCasts S2000x64
  inb_S64x7_S64x7_0_0 : ∀ a, (![0, 0] : Fin 2 → Nat) a + S64x7.size a ≤ S64x7.size a
  h_S64x7 : 0 < S64x7.numel
  inb_S2000x7_S2000x7_0_0 : ∀ a, (![0, 0] : Fin 2 → Nat) a + S2000x7.size a ≤ S2000x7.size a
  h_S2000x7 : 0 < S2000x7.numel
  bcast_S1280000x1_S1280000x7_0_1 : S1280000x1.BroadcastsInDim S1280000x7 (![0, 1] : Fin 2 → Fin S1280000x7.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S500x64_S64x64_S500x64_1_0_0_1_n_n_wf : DotDims.WF S500x64 S64x64 S500x64 [1] [0] [0] [1] [] []
  dot_S384x64_S64x64_S384x64_1_0_0_1_n_n_wf : DotDims.WF S384x64 S64x64 S384x64 [1] [0] [0] [1] [] []
  dot_S1x64_S64x64_S1x64_1_0_0_1_n_n_wf : DotDims.WF S1x64 S64x64 S1x64 [1] [0] [0] [1] [] []
  dot_S2000x500_S500x64_S2000x64_1_0_0_1_n_n_wf : DotDims.WF S2000x500 S500x64 S2000x64 [1] [0] [0] [1] [] []
  dot_S2000x384_S384x64_S2000x64_1_0_0_1_n_n_wf : DotDims.WF S2000x384 S384x64 S2000x64 [1] [0] [0] [1] [] []
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S2000x64_S64x7_S2000x7_1_0_0_1_n_n_wf : DotDims.WF S2000x64 S64x7 S2000x7 [1] [0] [0] [1] [] []
  gather_S100000x7_S1280000x1_S1280000x7_1_0_n_n_0_1_17_wf : GatherDims.WF S100000x7 S1280000x1 S1280000x7 [1] [0] [] [0] [] 1 ![1, 7]
  scatter_S100000x7_S1280000x1_S1280000x7_1_0_0_1_wf : ScatterDims.WF S100000x7 S1280000x1 S1280000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x384.size a ≤ S100000x384.size a
  hwx0_1 : ∀ i : grid0.Coords, EltTy.bits .f32 = 32 ∨ (Rect.block (s := S100000x384) S2000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500x64.size a ≤ S500x64.size a
  hwx0_2 : ∀ i : grid0.Coords, EltTy.bits .f32 = 32 ∨ (Rect.block (s := S500x64) S500x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x64.size a ≤ S384x64.size a
  hwx0_3 : ∀ i : grid0.Coords, EltTy.bits .f32 = 32 ∨ (Rect.block (s := S384x64) S384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x7.size a ≤ S64x7.size a
  hwx1_2 : ∀ i : grid1.Coords, EltTy.bits .f32 = 32 ∨ (Rect.block (s := S64x7) S64x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x7.size a ≤ S100000x7.size a
  hwx1_3 : ∀ i : grid1.Coords, EltTy.bits .f32 = 32 ∨ (Rect.block (s := S100000x7) S2000x7.size (cc1_transform_3 i) (hinb1_3 i)).WholeWords (EltTy.packing .f32)

variable [Facts₀]

def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S384x64_S64x64_S384x64_1_0_0_1_n_n : DotDims S384x64 S64x64 S384x64 where
  lhsContracting := [1]
  rhsContracting := [0]
  lhsNonContracting := [0]
  rhsNonContracting := [1]
  lhsBatch := []
  rhsBatch := []
  wf := dot_S384x64_S64x64_S384x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S2000x64_S64x7_S2000x7_1_0_0_1_n_n : DotDims S2000x64 S64x7 S2000x7 where
  lhsContracting := [1]
  rhsContracting := [0]
  lhsNonContracting := [0]
  rhsNonContracting := [1]
  lhsBatch := []
  rhsBatch := []
  wf := dot_S2000x64_S64x7_S2000x7_1_0_0_1_n_n_wf
def gather_S100000x7_S1280000x1_S1280000x7_1_0_n_n_0_1_17 : GatherDims S100000x7 S1280000x1 S1280000x7 where
  offsetDims := [1]
  collapsedSliceDims := [0]
  operandBatchingDims := []
  startIndicesBatchingDims := []
  startIndexMap := [0]
  indexVectorDim := 1
  sliceSizes := ![1, 7]
  wf := gather_S100000x7_S1280000x1_S1280000x7_1_0_n_n_0_1_17_wf
def scatter_S100000x7_S1280000x1_S1280000x7_1_0_0_1 : ScatterDims S100000x7 S1280000x1 S1280000x7 where
  updateWindowDims := [1]
  insertedWindowDims := [0]
  scatterDimsToOperandDims := [0]
  indexVectorDim := 1
  wf := scatter_S100000x7_S1280000x1_S1280000x7_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S500x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v57) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S2000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S1x1280000 : Shape := ⟨2, ![1, 1280000]⟩
abbrev S1280000 : Shape := ⟨1, ![1280000]⟩
abbrev S100000x64 : Shape := ⟨2, ![100000, 64]⟩
abbrev S1x64 : Shape := ⟨2, ![1, 64]⟩
abbrev S100000x128 : Shape := ⟨2, ![100000, 128]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S100000x1 : Shape := ⟨2, ![100000, 1]⟩
abbrev S100000x7 : Shape := ⟨2, ![100000, 7]⟩
abbrev S1280000x7 : Shape := ⟨2, ![1280000, 7]⟩
abbrev S1x7 : Shape := ⟨2, ![1, 7]⟩

abbrev nBuf : Space → Nat
  | .hbm => 139
  | .vmem => 0
  | .smem => 0
  | _ => 0

abbrev hbmTy0_0 (i : Nat) : BufTy := match i % 128 with
  | 0 => ⟨S100000x500, .f32⟩
  | 1 => ⟨S100000x384, .f32⟩
  | 2 => ⟨S2x1280000, .i32⟩
  | 3 => ⟨S500x64, .f32⟩
  | 4 => ⟨S64, .f32⟩
  | 5 => ⟨S384x64, .f32⟩
  | 6 => ⟨S64, .f32⟩
  | 7 => ⟨S128x64, .f32⟩
  | 8 => ⟨S64, .f32⟩
  | 9 => ⟨S64x7, .f32⟩
  | 10 => ⟨S7, .f32⟩
  | 11 => ⟨S1x1280000, .i32⟩
  | 12 => ⟨S1280000, .i32⟩
  | 13 => ⟨S1x1280000, .i32⟩
  | 14 => ⟨S1280000, .i32⟩
  | 15 => ⟨S100000x64, .f32⟩
  | 16 => ⟨S1x64, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x128, .f32⟩
  | 24 => ⟨S100000x64, .f32⟩
  | 25 => ⟨S_, .f32⟩
  | 26 => ⟨S1280000, .f32⟩
  | 27 => ⟨S_, .f32⟩
  | 28 => ⟨S100000, .f32⟩
  | 29 => ⟨S1280000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .i32⟩
  | 38 => ⟨S1280000, .i32⟩
  | 39 => ⟨S1280000, .i1⟩
  | 40 => ⟨S_, .i32⟩
  | 41 => ⟨S1280000, .i32⟩
  | 42 => ⟨S1280000, .i32⟩
  | 43 => ⟨S1280000, .i32⟩
  | 44 => ⟨S1280000x1, .i32⟩
  | 45 => ⟨S1280000, .f32⟩
  | 46 => ⟨S_, .i32⟩
  | 47 => ⟨S1280000, .i32⟩
  | 48 => ⟨S1280000, .i1⟩
  | 49 => ⟨S_, .i32⟩
  | 50 => ⟨S1280000, .i32⟩
  | 51 => ⟨S1280000, .i32⟩
  | 52 => ⟨S1280000, .i32⟩
  | 53 => ⟨S1280000x1, .i32⟩
  | 54 => ⟨S1280000, .f32⟩
  | 55 => ⟨S1280000, .f32⟩
  | 56 => ⟨S_, .i32⟩
  | 57 => ⟨S1280000, .i32⟩
  | 58 => ⟨S1280000, .i1⟩
  | 59 => ⟨S_, .i32⟩
  | 60 => ⟨S1280000, .i32⟩
  | 61 => ⟨S1280000, .i32⟩
  | 62 => ⟨S1280000, .i32⟩
  | 63 => ⟨S1280000x1, .i32⟩
  | 64 => ⟨S1280000x64, .f32⟩
  | 65 => ⟨S1280000x1, .f32⟩
  | 66 => ⟨S1280000x64, .f32⟩
  | 67 => ⟨S1280000x64, .f32⟩
  | 68 => ⟨S_, .f32⟩
  | 69 => ⟨S100000x64, .f32⟩
  | 70 => ⟨S1280000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x7, .f32⟩
  | 84 => ⟨S_, .f32⟩
  | 85 => ⟨S1280000, .f32⟩
  | 86 => ⟨S_, .f32⟩
  | 87 => ⟨S100000, .f32⟩
  | 88 => ⟨S1280000x1, .i32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S_, .i32⟩
  | 97 => ⟨S1280000, .i32⟩
  | 98 => ⟨S1280000, .i1⟩
  | 99 => ⟨S_, .i32⟩
  | 100 => ⟨S1280000, .i32⟩
  | 101 => ⟨S1280000, .i32⟩
  | 102 => ⟨S1280000, .i32⟩
  | 103 => ⟨S1280000x1, .i32⟩
  | 104 => ⟨S1280000, .f32⟩
  | 105 => ⟨S_, .i32⟩
  | 106 => ⟨S1280000, .i32⟩
  | 107 => ⟨S1280000, .i1⟩
  | 108 => ⟨S_, .i32⟩
  | 109 => ⟨S1280000, .i32⟩
  | 110 => ⟨S1280000, .i32⟩
  | 111 => ⟨S1280000, .i32⟩
  | 112 => ⟨S1280000x1, .i32⟩
  | 113 => ⟨S1280000, .f32⟩
  | 114 => ⟨S1280000, .f32⟩
  | 115 => ⟨S_, .i32⟩
  | 116 => ⟨S1280000, .i32⟩
  | 117 => ⟨S1280000, .i1⟩
  | 118 => ⟨S_, .i32⟩
  | 119 => ⟨S1280000, .i32⟩
  | 120 => ⟨S1280000, .i32⟩
  | 121 => ⟨S1280000, .i32⟩
  | 122 => ⟨S1280000x1, .i32⟩
  | 123 => ⟨S1280000x7, .f32⟩
  | 124 => ⟨S1280000x1, .f32⟩
  | 125 => ⟨S1280000x7, .f32⟩
  | 126 => ⟨S1280000x7, .f32⟩
  | 127 => ⟨S_, .f32⟩
  | _ => ⟨S100000x500, .f32⟩

abbrev hbmTy0_1 (i : Nat) : BufTy := match i % 128 with
  | 0 => ⟨S100000x7, .f32⟩
  | 1 => ⟨S1280000x1, .i32⟩
  | 2 => ⟨S100000x7, .f32⟩
  | 3 => ⟨S100000, .f32⟩
  | 4 => ⟨S100000x1, .f32⟩
  | 5 => ⟨S100000x7, .f32⟩
  | 6 => ⟨S100000x7, .f32⟩
  | 7 => ⟨S100000x7, .f32⟩
  | 8 => ⟨S1x7, .f32⟩
  | 9 => ⟨S100000x7, .f32⟩
  | 10 => ⟨S100000x7, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1280000x1_S1280000x7_0_1 : S1280000x1.BroadcastsInDim S1280000x7 (![0, 1] : Fin 2 → Fin S1280000x7.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x500_S500x64_S100000x64_1_0_0_1_n_n_wf : DotDims.WF S100000x500 S500x64 S100000x64 [1] [0] [0] [1] [] []
  dot_S100000x384_S384x64_S100000x64_1_0_0_1_n_n_wf : DotDims.WF S100000x384 S384x64 S100000x64 [1] [0] [0] [1] [] []
  dot_S100000x128_S128x64_S100000x64_1_0_0_1_n_n_wf : DotDims.WF S100000x128 S128x64 S100000x64 [1] [0] [0] [1] [] []
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x7_S100000x7_1_0_0_1_n_n_wf : DotDims.WF S100000x64 S64x7 S100000x7 [1] [0] [0] [1] [] []
  gather_S100000x7_S1280000x1_S1280000x7_1_0_n_n_0_1_17_wf : GatherDims.WF S100000x7 S1280000x1 S1280000x7 [1] [0] [] [0] [] 1 ![1, 7]
  scatter_S100000x7_S1280000x1_S1280000x7_1_0_0_1_wf : ScatterDims.WF S100000x7 S1280000x1 S1280000x7 [1] [0] [0] 1

variable [Facts₀]

def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf
def gather_S100000x7_S1280000x1_S1280000x7_1_0_n_n_0_1_17 : GatherDims S100000x7 S1280000x1 S1280000x7 where
  offsetDims := [1]
  collapsedSliceDims := [0]
  operandBatchingDims := []
  startIndicesBatchingDims := []
  startIndexMap := [0]
  indexVectorDim := 1
  sliceSizes := ![1, 7]
  wf := gather_S100000x7_S1280000x1_S1280000x7_1_0_n_n_0_1_17_wf
def scatter_S100000x7_S1280000x1_S1280000x7_1_0_0_1 : ScatterDims S100000x7 S1280000x1 S1280000x7 where
  updateWindowDims := [1]
  insertedWindowDims := [0]
  scatterDimsToOperandDims := [0]
  indexVectorDim := 1
  wf := scatter_S100000x7_S1280000x1_S1280000x7_1_0_0_1_wf

class Facts : Prop extends Facts₀ where

variable [Facts]
-- ==== Proof.KernelRun.lean ====
/-
  The idealized kernel's run, with the result array read.

  @main is five segments: host operations, the first dense kernel, host operations, the second dense kernel, host
  operations. Every weakly fair execution terminates, and in the final state every buffer outside the kernels' scratch
  holds what the fold of the five segments over the launch memory leaves there. The frame states this for the
  argument arrays only; here the same run is stated with the result array `main_v79` as well, at the fold's contents
  `W5`, which the value proof then reads segment by segment.
-/
import proofs.«157000_j34102040330885_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the
    five segments' fold leaves in it, and the argument arrays end as launched. -/
theorem run : θ_run defs (onTc (τ := τ) (main (F := F))) ⟨m, fun _ => 0, ρ⟩ (fun r => ∀ c : Dev nD,
      r.2.mem ((c.tc : Thread nD τ).loc main_v79) = W5 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v79 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.GraphOps.lean ====
/-
  The graph-convolution steps that surround the two dense products, as functions of the edge list.

  The edge list is a [2, E] array of node numbers: row 0 the source of each edge, row 1 its destination. With
  deg(i) = 1 + the number of edges arriving at node i and dinv = deg^(-1/2), one aggregation step sends a node table h
  (one row per node) to

      agg(h)(i) = (sum over the edges e arriving at i of h(src e) * (dinv(src e) * dinv(dst e))) + h(i) * (dinv(i) * dinv(i)).

  A node number below zero is first moved up by the number of nodes. The step is the same for a table of 64 columns and
  for one of 7 columns; the last step adds a bias vector along the rows. Nothing here is opened again: both programs
  apply these same functions, and the proof only ever replaces equal tables under them.
-/
import proofs.«157000_j34102040330885_2_alg».proof.Proof.Gen.KernelIdeal
import Idealize.ShloMosaic.PureOps.Ideal

noncomputable section

namespace Cert.Gcn

open Idealize.ShloMosaic Cert.KernelIdeal Cert.KernelIdeal.Facts₀

/-- Row 0 of the edge list: the source node of each edge. -/
def srcOf (E : IVec S2x1280000 32) : IVec S1280000 32 :=
  shapeCast _ (extractStridedSlice S1x1280000 ![0, 0] E slices_S2x1280000_S1x1280000_0_0) shapeCasts_S1x1280000_S1280000

/-- Row 1 of the edge list: the destination node of each edge. -/
def dstOf (E : IVec S2x1280000 32) : IVec S1280000 32 :=
  shapeCast _ (extractStridedSlice S1x1280000 ![1, 0] E slices_S2x1280000_S1x1280000_1_0) shapeCasts_S1x1280000_S1280000

/-- A list of node numbers as a one-column index table. -/
def column (i : IVec S1280000 32) : IVec S1280000x1 32 :=
  broadcastInDim S1280000x1 ![0] bcast_S1280000_S1280000x1_0 i

/-- The same after a node number below zero has been moved up by the number of nodes. -/
def wrapped (i : IVec S1280000 32) : IVec S1280000x1 32 :=
  broadcastInDim S1280000x1 ![0] bcast_S1280000_S1280000x1_0
    (select (cmpi .slt i (broadcastInDim S1280000 ![] bcast_S_S1280000 (constantI S_ 32 0#32)))
      (addi i (broadcastInDim S1280000 ![] bcast_S_S1280000 (constantI S_ 32 100000#32))) i)

/-- deg^(-1/2): one plus the count of arriving edges, to the power -1/2. -/
def dinv (d : IVec S1280000 32) : FVec Ideal S100000 .f32 :=
  Host.powf
    (addf
      (Host.scatterAdd scatter_S100000_S1280000x1_S1280000_n_0_0_1
        (broadcastInDim S100000 ![] bcast_S_S100000 (constant S_ .f32 0x00000000#32)) (column d)
        (broadcastInDim S1280000 ![] bcast_S_S1280000 (constant S_ .f32 0x3F800000#32)))
      (broadcastInDim S100000 ![] bcast_S_S100000 (constant S_ .f32 0x3F800000#32)))
    (broadcastInDim S100000 ![] bcast_S_S100000 (constant S_ .f32 0xBF000000#32))

/-- The weight of each edge: dinv at its source times dinv at its destination. -/
def coef (s d : IVec S1280000 32) : FVec Ideal S1280000 .f32 :=
  mulf (Host.gather gather_S100000_S1280000x1_S1280000_n_0_n_n_0_1_1 (dinv d) (wrapped s))
    (Host.gather gather_S100000_S1280000x1_S1280000_n_0_n_n_0_1_1 (dinv d) (wrapped d))

/-- The weight of each node's own row: dinv squared. -/
def dinv2 (d : IVec S1280000 32) : FVec Ideal S100000 .f32 := mulf (dinv d) (dinv d)

/-- One aggregation step on a table of 64 columns, from the edge weights and the self weights. -/
def agg64 (s d : IVec S1280000 32) (cf : FVec Ideal S1280000 .f32) (sw : FVec Ideal S100000 .f32)
    (h : FVec Ideal S100000x64 .f32) : FVec Ideal S100000x64 .f32 :=
  addf
    (Host.scatterAdd scatter_S100000x64_S1280000x1_S1280000x64_1_0_0_1
      (broadcastInDim S100000x64 ![] bcast_S_S100000x64 (constant S_ .f32 0x00000000#32)) (column d)
      (mulf (Host.gather gather_S100000x64_S1280000x1_S1280000x64_1_0_n_n_0_1_164 h (wrapped s))
        (broadcastInDim S1280000x64 ![0, 1] bcast_S1280000x1_S1280000x64_0_1
          (broadcastInDim S1280000x1 ![0] bcast_S1280000_S1280000x1_0 cf))))
    (mulf h
      (broadcastInDim S100000x64 ![0, 1] bcast_S100000x1_S100000x64_0_1
        (broadcastInDim S100000x1 ![0] bcast_S100000_S100000x1_0 sw)))

/-- One aggregation step on a table of 7 columns. -/
def agg7 (s d : IVec S1280000 32) (cf : FVec Ideal S1280000 .f32) (sw : FVec Ideal S100000 .f32)
    (h : FVec Ideal S100000x7 .f32) : FVec Ideal S100000x7 .f32 :=
  addf
    (Host.scatterAdd scatter_S100000x7_S1280000x1_S1280000x7_1_0_0_1
      (broadcastInDim S100000x7 ![] bcast_S_S100000x7 (constant S_ .f32 0x00000000#32)) (column d)
      (mulf (Host.gather gather_S100000x7_S1280000x1_S1280000x7_1_0_n_n_0_1_17 h (wrapped s))
        (broadcastInDim S1280000x7 ![0, 1] bcast_S1280000x1_S1280000x7_0_1
          (broadcastInDim S1280000x1 ![0] bcast_S1280000_S1280000x1_0 cf))))
    (mulf h
      (broadcastInDim S100000x7 ![0, 1] bcast_S100000x1_S100000x7_0_1
        (broadcastInDim S100000x1 ![0] bcast_S100000_S100000x1_0 sw)))

/-- The last layer: the aggregation of a 7-column table plus a bias vector along the rows. -/
def outLayer (s d : IVec S1280000 32) (cf : FVec Ideal S1280000 .f32) (sw : FVec Ideal S100000 .f32)
    (b2 : FVec Ideal S7 .f32) (h : FVec Ideal S100000x7 .f32) : FVec Ideal S100000x7 .f32 :=
  addf (agg7 s d cf sw h)
    (broadcastInDim S100000x7 ![0, 1] bcast_S1x7_S100000x7_0_1 (broadcastInDim S1x7 ![1] bcast_S7_S1x7_1 b2))

end Cert.Gcn

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«157000_j34102040330885_2_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.Folded.lean ====
/-
  The folded weights: what the kernel's host code computes from the parameters before the first dense kernel.

  The second weight matrix w1 has 128 rows; its top half (rows 0 … 63) meets the feature projection and its bottom
  half (rows 64 … 127) the text projection. The host code forms
      featWeights = w_feat · top(w1)   ([500, 64]),     textWeights = w_text · bottom(w1)   ([384, 64]),
      foldedBias  = b_feat · top(w1) + b_text · bottom(w1)   (a one-row matrix [1, 64]).
  Each is read here at an index as a plain sum over the 64 shared columns.
-/
import proofs.«157000_j34102040330885_2_alg».proof.Proof.Gen.KernelIdeal
import proofs.«157000_j34102040330885_2_alg».proof.Proof.LibDenseSteps
import Idealize.ShloMosaic.Lib.Pipeline.Value
import Idealize.ShloMosaic.Lib.ValueLayout

noncomputable section

namespace Cert.Folded

open Idealize.ShloMosaic Idealize.ShloMosaic.ValueIdx Cert.Layers Cert.ColsMatmul
open Cert.KernelIdeal Cert.KernelIdeal.Facts₀

/-- Row j of the top half of a 128-row matrix is row j. -/
def lo (j : Fin 64) : Fin 128 := ⟨j.val, by have := j.isLt; omega⟩
/-- Row j of the bottom half is row 64 + j. -/
def hi (j : Fin 64) : Fin 128 := ⟨64 + j.val, by have := j.isLt; omega⟩

/-- Rows 0 … 63 of w1. -/
def topHalf (w1 : FVec Ideal S128x64 .f32) : FVec Ideal S64x64 .f32 :=
  extractStridedSlice S64x64 ![0, 0] w1 slices_S128x64_S64x64_0_0
/-- Rows 64 … 127 of w1. -/
def botHalf (w1 : FVec Ideal S128x64 .f32) : FVec Ideal S64x64 .f32 :=
  extractStridedSlice S64x64 ![64, 0] w1 slices_S128x64_S64x64_64_0

theorem topHalf_apply (w1 : FVec Ideal S128x64 .f32) (j e : Fin 64) : topHalf w1 (ix2 j e) = w1 (ix2 (lo j) e) :=
  extractStridedSlice_apply _ _ _ (ix2 j e) (ix2 (lo j) e) fun a => by
    match a with
    | ⟨0, _⟩ => show j.val = 0 + j.val; omega
    | ⟨1, _⟩ => show e.val = 0 + e.val; omega

theorem botHalf_apply (w1 : FVec Ideal S128x64 .f32) (j e : Fin 64) : botHalf w1 (ix2 j e) = w1 (ix2 (hi j) e) :=
  extractStridedSlice_apply _ _ _ (ix2 j e) (ix2 (hi j) e) fun a => by
    match a with
    | ⟨0, _⟩ => rfl
    | ⟨1, _⟩ => show e.val = 0 + e.val; omega

/-- w_feat · top(w1). -/
def featWeights (wf : FVec Ideal S500x64 .f32) (w1 : FVec Ideal S128x64 .f32) : FVec Ideal S500x64 .f32 :=
  Host.dotGeneral dot_S500x64_S64x64_S500x64_1_0_0_1_n_n none wf (topHalf w1)
/-- w_text · bottom(w1). -/
def textWeights (wt : FVec Ideal S384x64 .f32) (w1 : FVec Ideal S128x64 .f32) : FVec Ideal S384x64 .f32 :=
  Host.dotGeneral dot_S384x64_S64x64_S384x64_1_0_0_1_n_n none wt (botHalf w1)
/-- b_feat · top(w1) + b_text · bottom(w1), as a one-row matrix. -/
def foldedBias (bf bt : FVec Ideal S64 .f32) (w1 : FVec Ideal S128x64 .f32) : FVec Ideal S1x64 .f32 :=
  shapeCast _
    (addf
      (shapeCast _ (Host.dotGeneral dot_S1x64_S64x64_S1x64_1_0_0_1_n_n none (broadcastInDim S1x64 ![1] bcast_S64_S1x64_1 bf) (topHalf w1)) shapeCasts_S1x64_S64)
      (shapeCast _ (Host.dotGeneral dot_S1x64_S64x64_S1x64_1_0_0_1_n_n none (broadcastInDim S1x64 ![1] bcast_S64_S1x64_1 bt) (botHalf w1)) shapeCasts_S1x64_S64))
    shapeCasts_S64_S1x64

theorem featWeights_apply (wf : FVec Ideal S500x64 .f32) (w1 : FVec Ideal S128x64 .f32) (k : Fin 500) (e : Fin 64) :
    featWeights wf w1 (ix2 k e) = ∑ j : Fin 64, wf (ix2 k j) * w1 (ix2 (lo j) e) := by
  unfold featWeights
  rw [dotGeneral_eq_prod (a := 500) (n := 64) (b := 64) dot_S500x64_S64x64_S500x64_1_0_0_1_n_n_wf dot_S500x64_S64x64_S500x64_1_0_0_1_n_n rfl, prod_apply]
  exact Finset.sum_congr rfl fun j _ => by rw [topHalf_apply]

theorem textWeights_apply (wt : FVec Ideal S384x64 .f32) (w1 : FVec Ideal S128x64 .f32) (k : Fin 384) (e : Fin 64) :
    textWeights wt w1 (ix2 k e) = ∑ j : Fin 64, wt (ix2 k j) * w1 (ix2 (hi j) e) := by
  unfold textWeights
  rw [dotGeneral_eq_prod (a := 384) (n := 64) (b := 64) dot_S384x64_S64x64_S384x64_1_0_0_1_n_n_wf dot_S384x64_S64x64_S384x64_1_0_0_1_n_n rfl, prod_apply]
  exact Finset.sum_congr rfl fun j _ => by rw [botHalf_apply]

/-- A vector laid along axis 1 of a one-row matrix reads its entry j at (0, j). -/
theorem rowOf_apply (β : FVec Ideal S64 .f32) (j : Fin 64) :
    broadcastInDim S1x64 ![1] bcast_S64_S1x64_1 β (ix2 (0 : Fin 1) j) = β (ix1 j) :=
  broadcastInDim_apply ![1] bcast_S64_S1x64_1 β (ix2 (0 : Fin 1) j) (ix1 j) fun ax => by
    match ax with
    | ⟨0, _⟩ => rfl

theorem foldedBias_apply (bf bt : FVec Ideal S64 .f32) (w1 : FVec Ideal S128x64 .f32) (e : Fin 64) :
    foldedBias bf bt w1 (ix2 (0 : Fin 1) e)
      = (∑ j : Fin 64, bf (ix1 j) * w1 (ix2 (lo j) e)) + (∑ j : Fin 64, bt (ix1 j) * w1 (ix2 (hi j) e)) := by
  unfold foldedBias
  rw [shapeCast_a_1a_apply]
  show shapeCast _ _ shapeCasts_S1x64_S64 (ix1 e) + shapeCast _ _ shapeCasts_S1x64_S64 (ix1 e) = _
  rw [shapeCast_1a_a_apply, shapeCast_1a_a_apply,
    dotGeneral_eq_prod (a := 1) (n := 64) (b := 64) dot_S1x64_S64x64_S1x64_1_0_0_1_n_n_wf dot_S1x64_S64x64_S1x64_1_0_0_1_n_n rfl,
    dotGeneral_eq_prod (a := 1) (n := 64) (b := 64) dot_S1x64_S64x64_S1x64_1_0_0_1_n_n_wf dot_S1x64_S64x64_S1x64_1_0_0_1_n_n rfl,
    prod_apply, prod_apply]
  congr 1
  · exact Finset.sum_congr rfl fun j _ => by rw [rowOf_apply, topHalf_apply]
  · exact Finset.sum_congr rfl fun j _ => by rw [rowOf_apply, botHalf_apply]

end Cert.Folded

end
-- ==== Proof.KernelStretch.lean ====
/-
  The host operations of the idealized kernel's @main, stretch by stretch, read as functions of what a stretch finds.

  @main is three stretches of host operations around the two dense kernels. From any buffer contents W:
  * the first stretch leaves the two rows of the edge list, the folded weights and the folded bias;
  * the second leaves the edge weights, the self weights, the first aggregation of the first kernel's output and the
    first layer's bias as a one-row matrix;
  * the third leaves the last layer of the second kernel's output.
  Buffers a stretch does not write keep their contents.
-/
import proofs.«157000_j34102040330885_2_alg».proof.Proof.Gen.KernelIdeal.Launch
import proofs.«157000_j34102040330885_2_alg».proof.Proof.GraphOps
import proofs.«157000_j34102040330885_2_alg».proof.Proof.Folded
import Idealize.ShloMosaic.Lib.StableHlo.Run

set_option maxRecDepth 16384

noncomputable section

namespace Cert.KernelIdeal.Stretch

open Idealize.ShloMosaic Idealize.ShloMosaic.StableHlo Idealize.ShloMosaic.TcCoe
open Cert.KernelIdeal Cert.KernelIdeal.Gen Cert.KernelIdeal.Facts₀ Cert.Gcn Cert.Folded

variable (W : Valuation τ sig (Elt Ideal))

/-! ## The first stretch -/

theorem first_src : after (hostOps0 (F := Ideal)) W (Proc.devRef .tc main_v1) = srcOf (W (Proc.devRef .tc main_arg2)) := by
  after_results_simp <;> rfl
theorem first_dst : after (hostOps0 (F := Ideal)) W (Proc.devRef .tc main_v3) = dstOf (W (Proc.devRef .tc main_arg2)) := by
  after_results_simp <;> rfl
theorem first_feat : after (hostOps0 (F := Ideal)) W (Proc.devRef .tc main_v6)
    = featWeights (W (Proc.devRef .tc main_arg3)) (W (Proc.devRef .tc main_arg7)) := by
  after_results_simp <;> rfl
theorem first_text : after (hostOps0 (F := Ideal)) W (Proc.devRef .tc main_v7)
    = textWeights (W (Proc.devRef .tc main_arg5)) (W (Proc.devRef .tc main_arg7)) := by
  after_results_simp <;> rfl
theorem first_bias : after (hostOps0 (F := Ideal)) W (Proc.devRef .tc main_v15)
    = foldedBias (W (Proc.devRef .tc main_arg4)) (W (Proc.devRef .tc main_arg6)) (W (Proc.devRef .tc main_arg7)) := by
  after_results_simp <;> rfl
theorem first_keeps_arg0 : after (hostOps0 (F := Ideal)) W (Proc.devRef .tc main_arg0) = W (Proc.devRef .tc main_arg0) := by
  after_results_simp <;> rfl
theorem first_keeps_arg1 : after (hostOps0 (F := Ideal)) W (Proc.devRef .tc main_arg1) = W (Proc.devRef .tc main_arg1) := by
  after_results_simp <;> rfl
theorem first_keeps_arg8 : after (hostOps0 (F := Ideal)) W (Proc.devRef .tc main_arg8) = W (Proc.devRef .tc main_arg8) := by
  after_results_simp <;> rfl
theorem first_keeps_arg9 : after (hostOps0 (F := Ideal)) W (Proc.devRef .tc main_arg9) = W (Proc.devRef .tc main_arg9) := by
  after_results_simp <;> rfl
theorem first_keeps_arg10 : after (hostOps0 (F := Ideal)) W (Proc.devRef .tc main_arg10) = W (Proc.devRef .tc main_arg10) := by
  after_results_simp <;> rfl

/-! ## The second stretch -/

theorem second_coef : after (hostOps1 (F := Ideal)) W (Proc.devRef .tc main_v39)
    = coef (W (Proc.devRef .tc main_v1)) (W (Proc.devRef .tc main_v3)) := by
  after_results_simp <;> rfl
theorem second_self : after (hostOps1 (F := Ideal)) W (Proc.devRef .tc main_v40) = dinv2 (W (Proc.devRef .tc main_v3)) := by
  after_results_simp <;> rfl
theorem second_agg : after (hostOps1 (F := Ideal)) W (Proc.devRef .tc main_v57)
    = agg64 (W (Proc.devRef .tc main_v1)) (W (Proc.devRef .tc main_v3))
        (coef (W (Proc.devRef .tc main_v1)) (W (Proc.devRef .tc main_v3))) (dinv2 (W (Proc.devRef .tc main_v3)))
        (W (Proc.devRef .tc main_v16)) := by
  after_results_simp <;> rfl
theorem second_bias : after (hostOps1 (F := Ideal)) W (Proc.devRef .tc main_v58)
    = shapeCast _ (W (Proc.devRef .tc main_arg8)) Facts₀.shapeCasts_S64_S1x64 := by
  after_results_simp <;> rfl
theorem second_keeps_v1 : after (hostOps1 (F := Ideal)) W (Proc.devRef .tc main_v1) = W (Proc.devRef .tc main_v1) := by
  after_results_simp <;> rfl
theorem second_keeps_v3 : after (hostOps1 (F := Ideal)) W (Proc.devRef .tc main_v3) = W (Proc.devRef .tc main_v3) := by
  after_results_simp <;> rfl
theorem second_keeps_arg9 : after (hostOps1 (F := Ideal)) W (Proc.devRef .tc main_arg9) = W (Proc.devRef .tc main_arg9) := by
  after_results_simp <;> rfl
theorem second_keeps_arg10 : after (hostOps1 (F := Ideal)) W (Proc.devRef .tc main_arg10) = W (Proc.devRef .tc main_arg10) := by
  after_results_simp <;> rfl

/-! ## The third stretch -/

theorem third_out : after (hostOps2 (F := Ideal)) W (Proc.devRef .tc main_v79)
    = outLayer (W (Proc.devRef .tc main_v1)) (W (Proc.devRef .tc main_v3)) (W (Proc.devRef .tc main_v39))
        (W (Proc.devRef .tc main_v40)) (W (Proc.devRef .tc main_arg10)) (W (Proc.devRef .tc main_v59)) := by
  after_results_simp <;> rfl

end Cert.KernelIdeal.Stretch

end
-- ==== Proof.Dense.lean ====
/-
  The two dense kernels, entry by entry on the extended reals.

  * `fused x t wa wb β`: for a block of rows x ([a, 500]) and t ([a, 384]), two weight matrices wa ([500, 64]) and
    wb ([384, 64]) and a one-row matrix β ([1, 64]):  entry (p, e) = (Σ_k x(p,k)·wa(k,e) + Σ_k t(p,k)·wb(k,e)) + β(0,e).
  * `rectified g β w`: for g ([a, 64]), a one-row matrix β and w ([64, 7]):
    entry (p, e) = Σ_k max(g(p,k) + β(0,k), 0) · w(k,e).
  What each kernel body stores is that function of the blocks it loads: the matrix unit's product into a zero
  accumulator is the plain sum of products whatever formats the operands were narrowed to, the narrowing being the
  identity on the extended reals. No finiteness is used.
-/
import proofs.«157000_j34102040330885_2_alg».proof.Proof.Gen.KernelIdeal.Skeleton
import proofs.«157000_j34102040330885_2_alg».proof.Proof.LibDenseSteps

noncomputable section

namespace Cert.Dense

open Idealize.ShloMosaic Idealize.ShloMosaic.ValueIdx Cert.Layers Cert.ColsMatmul
open Cert.KernelIdeal Cert.KernelIdeal.Facts₀

variable {a : ℕ}

/-- The first layer with its weights folded: two products added, plus a row. -/
def fused (x : (⟨2, ![a, 500]⟩ : Shape).Idx → EReal) (t : (⟨2, ![a, 384]⟩ : Shape).Idx → EReal)
    (wa : (⟨2, ![500, 64]⟩ : Shape).Idx → EReal) (wb : (⟨2, ![384, 64]⟩ : Shape).Idx → EReal)
    (β : (⟨2, ![1, 64]⟩ : Shape).Idx → EReal) : (⟨2, ![a, 64]⟩ : Shape).Idx → EReal :=
  addRowRow (fun i => prod x wa i + prod t wb i) β

/-- The second layer's dense step: a row added, the larger of that and zero, then a product. -/
def rectified (g : (⟨2, ![a, 64]⟩ : Shape).Idx → EReal) (β : (⟨2, ![1, 64]⟩ : Shape).Idx → EReal)
    (w : (⟨2, ![64, 7]⟩ : Shape).Idx → EReal) : (⟨2, ![a, 7]⟩ : Shape).Idx → EReal :=
  prod (biasReluRow g β) w

/-- An entry of `fused` depends on one row of each block, one column of each weight matrix and one entry of the row. -/
theorem fused_congr {a' : ℕ} (x : (⟨2, ![a, 500]⟩ : Shape).Idx → EReal) (t : (⟨2, ![a, 384]⟩ : Shape).Idx → EReal)
    (wa : (⟨2, ![500, 64]⟩ : Shape).Idx → EReal) (wb : (⟨2, ![384, 64]⟩ : Shape).Idx → EReal)
    (β : (⟨2, ![1, 64]⟩ : Shape).Idx → EReal)
    (x' : (⟨2, ![a', 500]⟩ : Shape).Idx → EReal) (t' : (⟨2, ![a', 384]⟩ : Shape).Idx → EReal)
    (wa' : (⟨2, ![500, 64]⟩ : Shape).Idx → EReal) (wb' : (⟨2, ![384, 64]⟩ : Shape).Idx → EReal)
    (β' : (⟨2, ![1, 64]⟩ : Shape).Idx → EReal) (p : Fin a) (p' : Fin a') (e : Fin 64)
    (hx : ∀ k, x (ix2 p k) = x' (ix2 p' k)) (ht : ∀ k, t (ix2 p k) = t' (ix2 p' k))
    (hwa : ∀ k, wa (ix2 k e) = wa' (ix2 k e)) (hwb : ∀ k, wb (ix2 k e) = wb' (ix2 k e))
    (hβ : β (ix2 (0 : Fin 1) e) = β' (ix2 (0 : Fin 1) e)) :
    fused x t wa wb β (ix2 p e) = fused x' t' wa' wb' β' (ix2 p' e) := by
  show (prod x wa (ix2 p e) + prod t wb (ix2 p e)) + β (ix2 (0 : Fin 1) e)
    = (prod x' wa' (ix2 p' e) + prod t' wb' (ix2 p' e)) + β' (ix2 (0 : Fin 1) e)
  rw [prod_congr x wa x' wa' (ix2 p e) (ix2 p' e) hx hwa, prod_congr t wb t' wb' (ix2 p e) (ix2 p' e) ht hwb, hβ]

/-- An entry of `rectified` depends on one row of the block, that row's entries of the bias row, and one column of
    the weights. -/
theorem rectified_congr {a' : ℕ} (g : (⟨2, ![a, 64]⟩ : Shape).Idx → EReal) (β : (⟨2, ![1, 64]⟩ : Shape).Idx → EReal)
    (w : (⟨2, ![64, 7]⟩ : Shape).Idx → EReal) (g' : (⟨2, ![a', 64]⟩ : Shape).Idx → EReal)
    (β' : (⟨2, ![1, 64]⟩ : Shape).Idx → EReal) (w' : (⟨2, ![64, 7]⟩ : Shape).Idx → EReal) (p : Fin a) (p' : Fin a') (e : Fin 7)
    (hg : ∀ k, g (ix2 p k) = g' (ix2 p' k)) (hβ : ∀ k, β (ix2 (0 : Fin 1) k) = β' (ix2 (0 : Fin 1) k))
    (hw : ∀ k, w (ix2 k e) = w' (ix2 k e)) :
    rectified g β w (ix2 p e) = rectified g' β' w' (ix2 p' e) :=
  prod_congr _ w _ w' (ix2 p e) (ix2 p' e) (fun k => biasReluRow_congr g β g' β' p p' k (hg k) (hβ k)) hw

/-- The first kernel body's spelling: both operands of each product narrowed, the two matrix-unit products into zero
    accumulators added, the one-row block repeated down the rows and added. -/
theorem fused_spelling (x0 : FVec Ideal S2000x500 .f32) (x1 : FVec Ideal S2000x384 .f32) (x2 : FVec Ideal S500x64 .f32)
    (x3 : FVec Ideal S384x64 .f32) (x4 : FVec Ideal S1x64 .f32) :
    addf (F := Ideal)
      (addf
        (FloatOps.matmul dot_S2000x500_S500x64_S2000x64_1_0_0_1_n_n none (truncf .bf16 x0 bitsLt_bf16_f32)
          (truncf .bf16 (shapeCast S500x64 x2 shapeCasts_S500x64_S500x64) bitsLt_bf16_f32) (constant (F := Ideal) S2000x64 .f32 0x00000000#32))
        (FloatOps.matmul dot_S2000x384_S384x64_S2000x64_1_0_0_1_n_n none (truncf .bf16 x1 bitsLt_bf16_f32)
          (truncf .bf16 (shapeCast S384x64 x3 shapeCasts_S384x64_S384x64) bitsLt_bf16_f32) (constant (F := Ideal) S2000x64 .f32 0x00000000#32)))
      (broadcastTo S2000x64 (shapeCast S1x64 x4 shapeCasts_S1x64_S1x64) broadcasts_S1x64_S2000x64)
      = fused (a := 2000) x0 x1 x2 x3 x4 := by
  rw [matmul_eq_prod (a := 2000) (n := 500) (b := 64) dot_S2000x500_S500x64_S2000x64_1_0_0_1_n_n_wf dot_S2000x500_S500x64_S2000x64_1_0_0_1_n_n rfl,
    matmul_eq_prod (a := 2000) (n := 384) (b := 64) dot_S2000x384_S384x64_S2000x64_1_0_0_1_n_n_wf dot_S2000x384_S384x64_S2000x64_1_0_0_1_n_n rfl,
    shapeCast_self, shapeCast_self, shapeCast_self]
  funext i
  obtain ⟨p, e, rfl⟩ : ∃ (p : Fin 2000) (e : Fin 64), i = ix2 p e := ⟨i 0, i 1, eq_ix2 i⟩
  show (_ + _) + broadcastTo (⟨2, ![2000, 64]⟩ : Shape) x4 broadcasts_S1x64_S2000x64 (ix2 p e) = _
  rw [broadcastTo_1b_ab_apply]
  rfl

/-- What the first kernel's body stores, from the blocks it loads. -/
theorem first_payload (x0 : FVec Ideal S2000x500 .f32) (x1 : FVec Ideal S2000x384 .f32) (x2 : FVec Ideal S500x64 .f32)
    (x3 : FVec Ideal S384x64 .f32) (x4 : FVec Ideal S1x64 .f32) :
    Gen.k0_pay1 (F := Ideal) x0 x1 x2 x3 x4 = fused (a := 2000) x0 x1 x2 x3 x4 :=
  fused_spelling x0 x1 x2 x3 x4

/-- The second kernel body's spelling: the one-row block repeated down the rows and added, the larger of that and a
    zero splat, both operands narrowed, the matrix-unit product into a zero accumulator. -/
theorem rectified_spelling (x0 : FVec Ideal S2000x64 .f32) (x1 : FVec Ideal S1x64 .f32) (x2 : FVec Ideal S64x7 .f32) :
    FloatOps.matmul (F := Ideal) dot_S2000x64_S64x7_S2000x7_1_0_0_1_n_n none
      (truncf .bf16
        (maximumf (addf (shapeCast S2000x64 x0 shapeCasts_S2000x64_S2000x64)
            (broadcastTo S2000x64 (shapeCast S1x64 x1 shapeCasts_S1x64_S1x64) broadcasts_S1x64_S2000x64))
          (broadcast S2000x64 (Scalar.ofBits (F := Ideal) .f32 0x00000000#32))) bitsLt_bf16_f32)
      (truncf .bf16 x2 bitsLt_bf16_f32) (constant (F := Ideal) S2000x7 .f32 0x00000000#32)
      = rectified (a := 2000) x0 x1 x2 := by
  rw [matmul_eq_prod (a := 2000) (n := 64) (b := 7) dot_S2000x64_S64x7_S2000x7_1_0_0_1_n_n_wf dot_S2000x64_S64x7_S2000x7_1_0_0_1_n_n rfl]
  show prod (maximumf (addf (shapeCast (⟨2, ![2000, 64]⟩ : Shape) x0 shapeCasts_S2000x64_S2000x64)
      (broadcastTo (⟨2, ![2000, 64]⟩ : Shape) (shapeCast (⟨2, ![1, 64]⟩ : Shape) x1 shapeCasts_S1x64_S1x64) broadcasts_S1x64_S2000x64))
      (broadcast (⟨2, ![2000, 64]⟩ : Shape) (Scalar.ofBits (F := Ideal) .f32 0x00000000#32))) x2 = _
  rw [kernel_biasRelu]
  rfl

/-- What the second kernel's body stores, from the blocks it loads. -/
theorem second_payload (x0 : FVec Ideal S2000x64 .f32) (x1 : FVec Ideal S1x64 .f32) (x2 : FVec Ideal S64x7 .f32) :
    Gen.k1_pay1 (F := Ideal) x0 x1 x2 = rectified (a := 2000) x0 x1 x2 :=
  rectified_spelling x0 x1 x2

end Cert.Dense

end
-- ==== Proof.Region0.lean ====
/-
  The first dense kernel over the whole node table.

  The grid has 50 points; point t loads rows 2000·t … 2000·t + 1999 of the two input tables and the whole of the two
  weight matrices and of the one-row bias, and writes rows 2000·t … 2000·t + 1999 of the output. What it writes is
  `Dense.fused` of the blocks it loaded, and an entry of `fused` depends only on its own row of the inputs, so each
  written block is the corresponding block of `fused` of the WHOLE tables. The 50 blocks tile the output, hence the
  output array ends holding `fused` of the arrays the kernel was entered with.
-/
import proofs.«157000_j34102040330885_2_alg».proof.Proof.Gen.KernelIdeal.Frame
import proofs.«157000_j34102040330885_2_alg».proof.Proof.Dense
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows are at block (t, 0), the whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 2000·t + p of the table. -/
def row (t : Fin cfg0.N) (p : Fin 2000) : Fin 100000 :=
  ⟨2000 * t.val + p.val, by have := t.isLt; have := p.isLt; have : cfg0.N = 50 := N_0; omega⟩

/-! ## Each window's block at a point, read at an index -/

theorem block_x (c : Dev nD) (t : Fin cfg0.N) (p : Fin 2000) (k : Fin 500) :
    (iblk0 V c 0 t : Vec Ideal S2000x500 .f32) (ix2 p k) = (V c main_arg0 : S100000x500.Idx → EReal) (ix2 (row t p) k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 500 + 1 * k.val = k.val; rw [e1]; omega

theorem block_t (c : Dev nD) (t : Fin cfg0.N) (p : Fin 2000) (k : Fin 384) :
    (iblk0 V c 1 t : Vec Ideal S2000x384 .f32) (ix2 p k) = (V c main_arg1 : S100000x384.Idx → EReal) (ix2 (row t p) k) := by
  obtain ⟨-, -, e0, e1, -⟩ := idx_facts t
  unfold iblk0
  rw [View.read_apply]
  show V c main_arg1 _ = V c main_arg1 _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 384 + 1 * k.val = k.val; rw [e1]; omega

theorem block_wa (c : Dev nD) (t : Fin cfg0.N) (k : Fin 500) (e : Fin 64) :
    (iblk0 V c 2 t : Vec Ideal S500x64 .f32) (ix2 k e) = (V c main_v6 : S500x64.Idx → EReal) (ix2 k e) := by
  obtain ⟨-, -, -, -, e0, e1, -⟩ := idx_facts t
  unfold iblk0
  rw [View.read_apply]
  show V c main_v6 _ = V c main_v6 _
  refine congrArg _ (funext fun a => Fin.ext ?_)
  match a with
  | ⟨0, _⟩ => show win0_2.index t (0 : Fin 2) * 500 + 1 * k.val = k.val; rw [e0]; omega
  | ⟨1, _⟩ => show win0_2.index t (1 : Fin 2) * 64 + 1 * e.val = e.val; rw [e1]; omega

theorem block_wb (c : Dev nD) (t : Fin cfg0.N) (k : Fin 384) (e : Fin 64) :
    (iblk0 V c 3 t : Vec Ideal S384x64 .f32) (ix2 k e) = (V c main_v7 : S384x64.Idx → EReal) (ix2 k e) := by
  obtain ⟨-, -, -, -, -, -, e0, e1, -⟩ := idx_facts t
  unfold iblk0
  rw [View.read_apply]
  show V c main_v7 _ = V c main_v7 _
  refine congrArg _ (funext fun a => Fin.ext ?_)
  match a with
  | ⟨0, _⟩ => show win0_3.index t (0 : Fin 2) * 384 + 1 * k.val = k.val; rw [e0]; omega
  | ⟨1, _⟩ => show win0_3.index t (1 : Fin 2) * 64 + 1 * e.val = e.val; rw [e1]; omega

theorem block_bias (c : Dev nD) (t : Fin cfg0.N) (e : Fin 64) :
    (iblk0 V c 4 t : Vec Ideal S1x64 .f32) (ix2 (0 : Fin 1) e) = (V c main_v15 : S1x64.Idx → EReal) (ix2 (0 : Fin 1) e) := by
  obtain ⟨-, -, -, -, -, -, -, -, e0, e1, -⟩ := idx_facts t
  unfold iblk0
  rw [View.read_apply]
  show V c main_v15 _ = V c main_v15 _
  refine congrArg _ (funext fun a => Fin.ext ?_)
  match a with
  | ⟨0, _⟩ => show win0_4.index t (0 : Fin 2) * 1 + 1 * 0 = 0; rw [e0]
  | ⟨1, _⟩ => show win0_4.index t (1 : Fin 2) * 64 + 1 * e.val = e.val; rw [e1]; omega

/-! ## What a point writes back -/

/-- The whole-table function the output ends at. -/
abbrev table (c : Dev nD) : S100000x64.Idx → EReal :=
  fused (a := 100000) (V c main_arg0) (V c main_arg1) (V c main_v6) (V c main_v7) (V c main_v15)

/-- Point t writes back block t of `table`. -/
theorem flushed_eq (c : Dev nD) (t : Fin cfg0.N) :
    (dat0 V c).flushed 5 t = ((cfg0.win 5).blk t).view.read (Elt Ideal) (table V c) := by
  show (cfg0.win 5).cut (grid0.coords t) ((dat0 V c).after 5 t) = _
  rw [after0_5]
  unfold out0_5
  rw [View.canon_unit_zero hz]
  simp only [View.ld_unit_zero (S := S2000x500) hz, View.ld_unit_zero (S := S2000x384) hz, View.ld_unit_zero (S := S500x64) hz,
    View.ld_unit_zero (S := S384x64) hz, View.ld_unit_zero (S := S1x64) hz]
  rw [first_payload]
  obtain ⟨-, -, -, -, -, -, -, -, -, -, e0, e1⟩ := idx_facts t
  funext j
  obtain ⟨p, e, rfl⟩ : ∃ (p : Fin 2000) (e : Fin 64), j = ix2 p e := ⟨j 0, j 1, eq_ix2 j⟩
  rw [View.read_apply]
  have hemb : ((cfg0.win 5).blk t).view.emb (ix2 p e) = (ix2 (row t p) e : S100000x64.Idx) :=
    funext fun a => Fin.ext (by
      match a with
      | ⟨0, _⟩ => show win0_5.index t (0 : Fin 2) * 2000 + 1 * p.val = 2000 * t.val + p.val; rw [e0]; omega
      | ⟨1, _⟩ => show win0_5.index t (1 : Fin 2) * 64 + 1 * e.val = e.val; rw [e1]; omega)
  rw [hemb]
  exact fused_congr _ _ _ _ _ _ _ _ _ _ p (row t p) e (fun k => block_x V c t p k) (fun k => block_t V c t p k)
    (fun k => block_wa V c t k e) (fun k => block_wb V c t k e) (block_bias V c t e)

/-- An index of the output is in point t's block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v16).slice (win0_5.rect t)).set ↔ _
  rw [View.set_slice_whole, Rect.mem_set_unit]
  exact Iff.rfl

/-- Every index of the output is in some point's block: row r is in block r / 2000. -/
theorem cover (i : S100000x64.Idx) : ∃ t : Fin cfg0.N, (cfg0.win 5).flush t = true ∧ i ∈ ((cfg0.win 5).blk t).view.set := by
  have hN : cfg0.N = 50 := N_0
  have h0 : (i 0).val < 100000 := (i 0).isLt
  have h1 : (i 1).val < 64 := (i 1).isLt
  refine ⟨⟨(i 0).val / 2000, by omega⟩, flush0_5 _, ?_⟩
  rw [mem_blk]
  obtain ⟨-, -, -, -, -, -, -, -, -, -, e0, e1⟩ := idx_facts ⟨(i 0).val / 2000, by omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

/-- THE OUTPUT ARRAY after the first kernel: `fused` of the arrays it was entered with. -/
theorem final (c : Dev nD) : (dat0 V c).arrAt 5 cfg0.N = table V c :=
  (dat0 V c).arrAt_eq_of_cover 5 (table V c) (fun t _ => flushed_eq V c t) (cover)

end Cert.KernelIdeal.Region0

end
-- ==== Proof.Region1.lean ====
/-
  The second dense kernel over the whole node table.

  The grid has 50 points; point t loads rows 2000·t … 2000·t + 1999 of the aggregated table, the whole one-row bias
  and the whole weight matrix, and writes rows 2000·t … 2000·t + 1999 of the output: `Dense.rectified` of the blocks it
  loaded. An entry of `rectified` depends only on its own row of the table, so each written block is the
  corresponding block of `rectified` of the whole table; the 50 blocks tile the output.
-/
import proofs.«157000_j34102040330885_2_alg».proof.Proof.Gen.KernelIdeal.Frame
import proofs.«157000_j34102040330885_2_alg».proof.Proof.Dense
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows are at block (t, 0), the whole-array
    windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 2000·t + p of the table. -/
def row (t : Fin cfg1.N) (p : Fin 2000) : Fin 100000 :=
  ⟨2000 * t.val + p.val, by have := t.isLt; have := p.isLt; have : cfg1.N = 50 := N_1; omega⟩

/-! ## Each window's block at a point, read at an index -/

theorem block_g (c : Dev nD) (t : Fin cfg1.N) (p : Fin 2000) (k : Fin 64) :
    (iblk1 V c 0 t : Vec Ideal S2000x64 .f32) (ix2 p k) = (V c main_v57 : S100000x64.Idx → EReal) (ix2 (row t p) k) := by
  obtain ⟨e0, e1, -⟩ := idx_facts t
  unfold iblk1
  rw [View.read_apply]
  show V c main_v57 _ = V c main_v57 _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 64 + 1 * k.val = k.val; rw [e1]; omega

theorem block_bias (c : Dev nD) (t : Fin cfg1.N) (k : Fin 64) :
    (iblk1 V c 1 t : Vec Ideal S1x64 .f32) (ix2 (0 : Fin 1) k) = (V c main_v58 : S1x64.Idx → EReal) (ix2 (0 : Fin 1) k) := by
  obtain ⟨-, -, e0, e1, -⟩ := idx_facts t
  unfold iblk1
  rw [View.read_apply]
  show V c main_v58 _ = V c main_v58 _
  refine congrArg _ (funext fun a => Fin.ext ?_)
  match a with
  | ⟨0, _⟩ => show win1_1.index t (0 : Fin 2) * 1 + 1 * 0 = 0; rw [e0]
  | ⟨1, _⟩ => show win1_1.index t (1 : Fin 2) * 64 + 1 * k.val = k.val; rw [e1]; omega

theorem block_w (c : Dev nD) (t : Fin cfg1.N) (k : Fin 64) (e : Fin 7) :
    (iblk1 V c 2 t : Vec Ideal S64x7 .f32) (ix2 k e) = (V c main_arg9 : S64x7.Idx → EReal) (ix2 k e) := by
  obtain ⟨-, -, -, -, e0, e1, -⟩ := idx_facts t
  unfold iblk1
  rw [View.read_apply]
  show V c main_arg9 _ = V c main_arg9 _
  refine congrArg _ (funext fun a => Fin.ext ?_)
  match a with
  | ⟨0, _⟩ => show win1_2.index t (0 : Fin 2) * 64 + 1 * k.val = k.val; rw [e0]; omega
  | ⟨1, _⟩ => show win1_2.index t (1 : Fin 2) * 7 + 1 * e.val = e.val; rw [e1]; omega

/-! ## What a point writes back -/

/-- The whole-table function the output ends at. -/
abbrev table (c : Dev nD) : S100000x7.Idx → EReal :=
  rectified (a := 100000) (V c main_v57) (V c main_v58) (V c main_arg9)

/-- Point t writes back block t of `table`. -/
theorem flushed_eq (c : Dev nD) (t : Fin cfg1.N) :
    (dat1 V c).flushed 3 t = ((cfg1.win 3).blk t).view.read (Elt Ideal) (table V c) := by
  show (cfg1.win 3).cut (grid1.coords t) ((dat1 V c).after 3 t) = _
  rw [after1_3]
  unfold out1_3
  rw [View.canon_unit_zero hz]
  simp only [View.ld_unit_zero (S := S2000x64) hz, View.ld_unit_zero (S := S1x64) hz, View.ld_unit_zero (S := S64x7) hz]
  rw [second_payload]
  obtain ⟨-, -, -, -, -, -, e0, e1⟩ := idx_facts t
  funext j
  obtain ⟨p, e, rfl⟩ : ∃ (p : Fin 2000) (e : Fin 7), j = ix2 p e := ⟨j 0, j 1, eq_ix2 j⟩
  rw [View.read_apply]
  have hemb : ((cfg1.win 3).blk t).view.emb (ix2 p e) = (ix2 (row t p) e : S100000x7.Idx) :=
    funext fun a => Fin.ext (by
      match a with
      | ⟨0, _⟩ => show win1_3.index t (0 : Fin 2) * 2000 + 1 * p.val = 2000 * t.val + p.val; rw [e0]; omega
      | ⟨1, _⟩ => show win1_3.index t (1 : Fin 2) * 7 + 1 * e.val = e.val; rw [e1]; omega)
  rw [hemb]
  exact rectified_congr _ _ _ _ _ _ p (row t p) e (fun k => block_g V c t p k) (fun k => block_bias V c t k)
    (fun k => block_w V c t k e)

/-- An index of the output is in point t's block iff each coordinate is in the block's range on its axis. -/
theorem mem_blk (t : Fin cfg1.N) (i : S100000x7.Idx) :
    i ∈ ((cfg1.win 3).blk t).view.set ↔ ∀ a : Fin 2, win1_3.index t a * S2000x7.size a ≤ (i a).val ∧ (i a).val < win1_3.index t a * S2000x7.size a + S2000x7.size a := by
  show i ∈ ((View.whole main_v59).slice (win1_3.rect t)).set ↔ _
  rw [View.set_slice_whole, Rect.mem_set_unit]
  exact Iff.rfl

/-- Every index of the output is in some point's block: row r is in block r / 2000. -/
theorem cover (i : S100000x7.Idx) : ∃ t : Fin cfg1.N, (cfg1.win 3).flush t = true ∧ i ∈ ((cfg1.win 3).blk t).view.set := by
  have hN : cfg1.N = 50 := N_1
  have h0 : (i 0).val < 100000 := (i 0).isLt
  have h1 : (i 1).val < 7 := (i 1).isLt
  refine ⟨⟨(i 0).val / 2000, by omega⟩, flush1_3 _, ?_⟩
  rw [mem_blk]
  obtain ⟨-, -, -, -, -, -, e0, e1⟩ := idx_facts ⟨(i 0).val / 2000, by omega⟩
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 7 ≤ (i 1).val ∧ (i 1).val < win1_3.index _ (1 : Fin 2) * 7 + 7
    rw [e1]; omega

/-- THE OUTPUT ARRAY after the second kernel: `rectified` of the arrays it was entered with. -/
theorem final (c : Dev nD) : (dat1 V c).arrAt 3 cfg1.N = table V c :=
  (dat1 V c).arrAt_eq_of_cover 3 (table V c) (fun t _ => flushed_eq V c t) (cover)

end Cert.KernelIdeal.Region1

end
-- ==== Proof.KernelValue.lean ====
/-
  The idealized kernel's result as one function of its arguments.

  The fold of @main's five segments over the launch memory is read here from the front:
  * after the first stretch: the edge list's two rows, the folded weights and the folded bias;
  * after the first kernel: its output is `fused` of the two feature tables, the folded weights and the folded bias;
  * after the second stretch: the edge weights, the self weights, the first aggregation of that output, the bias row;
  * after the second kernel: its output is `rectified` of the aggregation, the bias row and w2;
  * after the third stretch: the last layer of that output.
  A buffer that a segment does not write keeps its contents.
-/
import proofs.«157000_j34102040330885_2_alg».proof.Proof.Gen.KernelIdeal.Frame
import proofs.«157000_j34102040330885_2_alg».proof.Proof.KernelStretch
import proofs.«157000_j34102040330885_2_alg».proof.Proof.Region0
import proofs.«157000_j34102040330885_2_alg».proof.Proof.Region1

set_option maxRecDepth 16384

noncomputable section

namespace Cert.KernelIdeal.Whole

open Idealize.ShloMosaic Idealize.ShloMosaic.TcCoe Idealize.SL.Sem
open Cert.KernelIdeal Cert.KernelIdeal.Gen Cert.KernelIdeal.Stretch Cert.Gcn Cert.Folded Cert.Dense

variable (m : (ℓ : Loc nD τ sig) → Buf (Elt Ideal) ℓ) (ρ : Dev nD → PrngReg)

/-- The first kernel's output as a function of the arguments. -/
def hw1 (c : Dev nD) : S100000x64.Idx → EReal :=
  fused (a := 100000) (m ((c : Thread nD τ).loc main_arg0)) (m ((c : Thread nD τ).loc main_arg1))
    (featWeights (m ((c : Thread nD τ).loc main_arg3)) (m ((c : Thread nD τ).loc main_arg7)))
    (textWeights (m ((c : Thread nD τ).loc main_arg5)) (m ((c : Thread nD τ).loc main_arg7)))
    (foldedBias (m ((c : Thread nD τ).loc main_arg4)) (m ((c : Thread nD τ).loc main_arg6)) (m ((c : Thread nD τ).loc main_arg7)))

/-- The kernel's result as a function of the arguments and of the first kernel's output. -/
def resultOf (c : Dev nD) (h : S100000x64.Idx → EReal) : S100000x7.Idx → EReal :=
  outLayer (srcOf (m ((c : Thread nD τ).loc main_arg2))) (dstOf (m ((c : Thread nD τ).loc main_arg2)))
    (coef (srcOf (m ((c : Thread nD τ).loc main_arg2))) (dstOf (m ((c : Thread nD τ).loc main_arg2))))
    (dinv2 (dstOf (m ((c : Thread nD τ).loc main_arg2))))
    (m ((c : Thread nD τ).loc main_arg10))
    (rectified (a := 100000)
      (agg64 (srcOf (m ((c : Thread nD τ).loc main_arg2))) (dstOf (m ((c : Thread nD τ).loc main_arg2)))
        (coef (srcOf (m ((c : Thread nD τ).loc main_arg2))) (dstOf (m ((c : Thread nD τ).loc main_arg2))))
        (dinv2 (dstOf (m ((c : Thread nD τ).loc main_arg2)))) h)
      (shapeCast _ (m ((c : Thread nD τ).loc main_arg8)) Facts₀.shapeCasts_S64_S1x64)
      (m ((c : Thread nD τ).loc main_arg9)))

/-! ## After the first stretch -/

theorem W1_src (c : Dev nD) : W1 m ρ c (Proc.devRef .tc main_v1) = srcOf (m ((c : Thread nD τ).loc main_arg2)) := first_src (W0 m ρ c)
theorem W1_dst (c : Dev nD) : W1 m ρ c (Proc.devRef .tc main_v3) = dstOf (m ((c : Thread nD τ).loc main_arg2)) := first_dst (W0 m ρ c)
theorem W1_feat (c : Dev nD) : W1 m ρ c (Proc.devRef .tc main_v6)
    = featWeights (m ((c : Thread nD τ).loc main_arg3)) (m ((c : Thread nD τ).loc main_arg7)) := first_feat (W0 m ρ c)
theorem W1_text (c : Dev nD) : W1 m ρ c (Proc.devRef .tc main_v7)
    = textWeights (m ((c : Thread nD τ).loc main_arg5)) (m ((c : Thread nD τ).loc main_arg7)) := first_text (W0 m ρ c)
theorem W1_bias (c : Dev nD) : W1 m ρ c (Proc.devRef .tc main_v15)
    = foldedBias (m ((c : Thread nD τ).loc main_arg4)) (m ((c : Thread nD τ).loc main_arg6)) (m ((c : Thread nD τ).loc main_arg7)) :=
  first_bias (W0 m ρ c)
theorem W1_arg0 (c : Dev nD) : W1 m ρ c (Proc.devRef .tc main_arg0) = m ((c : Thread nD τ).loc main_arg0) := first_keeps_arg0 (W0 m ρ c)
theorem W1_arg1 (c : Dev nD) : W1 m ρ c (Proc.devRef .tc main_arg1) = m ((c : Thread nD τ).loc main_arg1) := first_keeps_arg1 (W0 m ρ c)
theorem W1_arg8 (c : Dev nD) : W1 m ρ c (Proc.devRef .tc main_arg8) = m ((c : Thread nD τ).loc main_arg8) := first_keeps_arg8 (W0 m ρ c)
theorem W1_arg9 (c : Dev nD) : W1 m ρ c (Proc.devRef .tc main_arg9) = m ((c : Thread nD τ).loc main_arg9) := first_keeps_arg9 (W0 m ρ c)
theorem W1_arg10 (c : Dev nD) : W1 m ρ c (Proc.devRef .tc main_arg10) = m ((c : Thread nD τ).loc main_arg10) := first_keeps_arg10 (W0 m ρ c)

/-! ## After the first kernel -/

theorem W2_hw1 (c : Dev nD) : W2 m ρ c (Proc.devRef .tc main_v16) = hw1 m c :=
  ((W2_arr m ρ c 5).trans (Region0.final (V1 m ρ) c)).trans (by
    show fused (a := 100000) (W1 m ρ c (Proc.devRef .tc main_arg0)) (W1 m ρ c (Proc.devRef .tc main_arg1))
      (W1 m ρ c (Proc.devRef .tc main_v6)) (W1 m ρ c (Proc.devRef .tc main_v7)) (W1 m ρ c (Proc.devRef .tc main_v15)) = _
    rw [W1_arg0, W1_arg1, W1_feat, W1_text, W1_bias]
    rfl)
theorem W2_src (c : Dev nD) : W2 m ρ c (Proc.devRef .tc main_v1) = srcOf (m ((c : Thread nD τ).loc main_arg2)) :=
  (W2_of_ne m ρ c main_v1 (by decide)).trans (W1_src m ρ c)
theorem W2_dst (c : Dev nD) : W2 m ρ c (Proc.devRef .tc main_v3) = dstOf (m ((c : Thread nD τ).loc main_arg2)) :=
  (W2_of_ne m ρ c main_v3 (by decide)).trans (W1_dst m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## After the second stretch -/

theorem W3_src (c : Dev nD) : W3 m ρ c (Proc.devRef .tc main_v1) = srcOf (m ((c : Thread nD τ).loc main_arg2)) :=
  (second_keeps_v1 (W2 m ρ c)).trans (W2_src m ρ c)
theorem W3_dst (c : Dev nD) : W3 m ρ c (Proc.devRef .tc main_v3) = dstOf (m ((c : Thread nD τ).loc main_arg2)) :=
  (second_keeps_v3 (W2 m ρ c)).trans (W2_dst m ρ c)
theorem W3_coef (c : Dev nD) : W3 m ρ c (Proc.devRef .tc main_v39)
    = coef (srcOf (m ((c : Thread nD τ).loc main_arg2))) (dstOf (m ((c : Thread nD τ).loc main_arg2))) :=
  (second_coef (W2 m ρ c)).trans (by rw [W2_src, W2_dst])
theorem W3_self (c : Dev nD) : W3 m ρ c (Proc.devRef .tc main_v40) = dinv2 (dstOf (m ((c : Thread nD τ).loc main_arg2))) :=
  (second_self (W2 m ρ c)).trans (by rw [W2_dst])
theorem W3_agg (c : Dev nD) : W3 m ρ c (Proc.devRef .tc main_v57)
    = agg64 (srcOf (m ((c : Thread nD τ).loc main_arg2))) (dstOf (m ((c : Thread nD τ).loc main_arg2)))
        (coef (srcOf (m ((c : Thread nD τ).loc main_arg2))) (dstOf (m ((c : Thread nD τ).loc main_arg2))))
        (dinv2 (dstOf (m ((c : Thread nD τ).loc main_arg2)))) (hw1 m c) :=
  (second_agg (W2 m ρ c)).trans (by rw [W2_src, W2_dst, W2_hw1])
theorem W3_bias (c : Dev nD) : W3 m ρ c (Proc.devRef .tc main_v58)
    = shapeCast _ (m ((c : Thread nD τ).loc main_arg8)) Facts₀.shapeCasts_S64_S1x64 :=
  (second_bias (W2 m ρ c)).trans (by rw [W2_arg8])
theorem W3_arg9 (c : Dev nD) : W3 m ρ c (Proc.devRef .tc main_arg9) = m ((c : Thread nD τ).loc main_arg9) :=
  (second_keeps_arg9 (W2 m ρ c)).trans (W2_arg9 m ρ c)
theorem W3_arg10 (c : Dev nD) : W3 m ρ c (Proc.devRef .tc main_arg10) = m ((c : Thread nD τ).loc main_arg10) :=
  (second_keeps_arg10 (W2 m ρ c)).trans (W2_arg10 m ρ c)

/-! ## After the second kernel -/

theorem W4_hw2 (c : Dev nD) : W4 m ρ c (Proc.devRef .tc main_v59)
    = rectified (a := 100000)
        (agg64 (srcOf (m ((c : Thread nD τ).loc main_arg2))) (dstOf (m ((c : Thread nD τ).loc main_arg2)))
          (coef (srcOf (m ((c : Thread nD τ).loc main_arg2))) (dstOf (m ((c : Thread nD τ).loc main_arg2))))
          (dinv2 (dstOf (m ((c : Thread nD τ).loc main_arg2)))) (hw1 m c))
        (shapeCast _ (m ((c : Thread nD τ).loc main_arg8)) Facts₀.shapeCasts_S64_S1x64)
        (m ((c : Thread nD τ).loc main_arg9)) :=
  ((W4_arr m ρ c 3).trans (Region1.final (V3 m ρ) c)).trans (by
    show rectified (a := 100000) (W3 m ρ c (Proc.devRef .tc main_v57)) (W3 m ρ c (Proc.devRef .tc main_v58))
      (W3 m ρ c (Proc.devRef .tc main_arg9)) = _
    rw [W3_agg, W3_bias, W3_arg9])
theorem W4_src (c : Dev nD) : W4 m ρ c (Proc.devRef .tc main_v1) = srcOf (m ((c : Thread nD τ).loc main_arg2)) :=
  (W4_of_ne m ρ c main_v1 (by decide)).trans (W3_src m ρ c)
theorem W4_dst (c : Dev nD) : W4 m ρ c (Proc.devRef .tc main_v3) = dstOf (m ((c : Thread nD τ).loc main_arg2)) :=
  (W4_of_ne m ρ c main_v3 (by decide)).trans (W3_dst m ρ c)
theorem W4_coef (c : Dev nD) : W4 m ρ c (Proc.devRef .tc main_v39)
    = coef (srcOf (m ((c : Thread nD τ).loc main_arg2))) (dstOf (m ((c : Thread nD τ).loc main_arg2))) :=
  (W4_of_ne m ρ c main_v39 (by decide)).trans (W3_coef m ρ c)
theorem W4_self (c : Dev nD) : W4 m ρ c (Proc.devRef .tc main_v40) = dinv2 (dstOf (m ((c : Thread nD τ).loc main_arg2))) :=
  (W4_of_ne m ρ c main_v40 (by decide)).trans (W3_self m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## The result -/

/-- THE RESULT ARRAY's final contents: the last layer over the second kernel's output over the first aggregation of
    the first kernel's output. -/
theorem result (c : Dev nD) : W5 m ρ c (Proc.devRef .tc main_v79) = resultOf m c (hw1 m c) :=
  (third_out (W4 m ρ c)).trans (by
    rw [W4_src, W4_dst, W4_coef, W4_self, W4_arg10, W4_hw2]
    rfl)

end Cert.KernelIdeal.Whole

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.RefValue.lean ====
/-
  The reference's result, arranged as the kernel's is.

  The reference computes, on the host: the two projections with their biases side by side in one [N, 128] table, that
  table times the 128-row weight matrix w1 (`firstProduct`), the first aggregation, a bias and the larger of that and
  zero followed by the product with w2 (`secondProduct`), and the last layer. Its run's result term is exactly these
  functions composed (`result_eq`). Read at an index, the first product splits at the seam of the two halves:
      firstProduct(p, e) = Σ_j (Σ_k x(p,k)·wf(k,j) + bf(j)) · w1(j, e) + Σ_j (Σ_k t(p,k)·wt(k,j) + bt(j)) · w1(64 + j, e).
-/
import proofs.«157000_j34102040330885_2_alg».proof.Proof.Gen.ReferenceIdeal.Run
import proofs.«157000_j34102040330885_2_alg».proof.Proof.GraphOps
import proofs.«157000_j34102040330885_2_alg».proof.Proof.Folded
import proofs.«157000_j34102040330885_2_alg».proof.Proof.LibDenseSteps
import proofs.«157000_j34102040330885_2_alg».proof.Proof.LibERealSums
import Idealize.ShloMosaic.Lib.Pipeline.Value

set_option maxRecDepth 16384

noncomputable section

namespace Cert.ReferenceIdeal.RefValue

open Idealize.ShloMosaic Idealize.ShloMosaic.TcCoe Idealize.ShloMosaic.ValueIdx Idealize.SL.Sem
open Cert.Layers Cert.ColsMatmul Cert.LibERealSums
open Cert.ReferenceIdeal Cert.ReferenceIdeal.Facts₀

/-- The two projections with their biases, side by side: columns 0 … 63 the features', 64 … 127 the text's. -/
def hidden (x : FVec Ideal S100000x500 .f32) (t : FVec Ideal S100000x384 .f32) (wf : FVec Ideal S500x64 .f32)
    (bf : FVec Ideal S64 .f32) (wt : FVec Ideal S384x64 .f32) (bt : FVec Ideal S64 .f32) : FVec Ideal S100000x128 .f32 :=
  concatenate S100000x128 1
    [⟨S100000x64, addf (Host.dotGeneral dot_S100000x500_S500x64_S100000x64_1_0_0_1_n_n none x wf)
        (broadcastInDim S100000x64 ![0, 1] bcast_S1x64_S100000x64_0_1 (broadcastInDim S1x64 ![1] bcast_S64_S1x64_1 bf))⟩,
     ⟨S100000x64, addf (Host.dotGeneral dot_S100000x384_S384x64_S100000x64_1_0_0_1_n_n none t wt)
        (broadcastInDim S100000x64 ![0, 1] bcast_S1x64_S100000x64_0_1 (broadcastInDim S1x64 ![1] bcast_S64_S1x64_1 bt))⟩]
    concatenates_S100000x64_S100000x64_S100000x128_d1

/-- The side-by-side table times w1. -/
def firstProduct (x : FVec Ideal S100000x500 .f32) (t : FVec Ideal S100000x384 .f32) (wf : FVec Ideal S500x64 .f32)
    (bf : FVec Ideal S64 .f32) (wt : FVec Ideal S384x64 .f32) (bt : FVec Ideal S64 .f32) (w1 : FVec Ideal S128x64 .f32) :
    FVec Ideal S100000x64 .f32 :=
  Host.dotGeneral dot_S100000x128_S128x64_S100000x64_1_0_0_1_n_n none (hidden x t wf bf wt bt) w1

/-- A bias along the rows, the larger of that and zero, then the product with w2. -/
def secondProduct (g : FVec Ideal S100000x64 .f32) (b1 : FVec Ideal S64 .f32) (w2 : FVec Ideal S64x7 .f32) :
    FVec Ideal S100000x7 .f32 :=
  Host.dotGeneral dot_S100000x64_S64x7_S100000x7_1_0_0_1_n_n none
    (maximumf
      (addf g (broadcastInDim S100000x64 ![0, 1] bcast_S1x64_S100000x64_0_1 (broadcastInDim S1x64 ![1] bcast_S64_S1x64_1 b1)))
      (broadcastInDim S100000x64 ![] bcast_S_S100000x64 (constant S_ .f32 0x00000000#32)))
    w2

/-- The reference run's result term is the graph operations composed over the two products. -/
theorem result_eq (m : (ℓ : Loc nD τ sig) → Buf (Elt Ideal) ℓ) (c : Dev nD) :
    Value.res_main_v103 (F := Ideal) m c
      = Cert.Gcn.outLayer (Cert.Gcn.srcOf (m ((c.tc : Thread nD τ).loc main_arg2))) (Cert.Gcn.dstOf (m ((c.tc : Thread nD τ).loc main_arg2)))
          (Cert.Gcn.coef (Cert.Gcn.srcOf (m ((c.tc : Thread nD τ).loc main_arg2))) (Cert.Gcn.dstOf (m ((c.tc : Thread nD τ).loc main_arg2))))
          (Cert.Gcn.dinv2 (Cert.Gcn.dstOf (m ((c.tc : Thread nD τ).loc main_arg2))))
          (m ((c.tc : Thread nD τ).loc main_arg10))
          (secondProduct
            (Cert.Gcn.agg64 (Cert.Gcn.srcOf (m ((c.tc : Thread nD τ).loc main_arg2))) (Cert.Gcn.dstOf (m ((c.tc : Thread nD τ).loc main_arg2)))
              (Cert.Gcn.coef (Cert.Gcn.srcOf (m ((c.tc : Thread nD τ).loc main_arg2))) (Cert.Gcn.dstOf (m ((c.tc : Thread nD τ).loc main_arg2))))
              (Cert.Gcn.dinv2 (Cert.Gcn.dstOf (m ((c.tc : Thread nD τ).loc main_arg2))))
              (firstProduct (m ((c.tc : Thread nD τ).loc main_arg0)) (m ((c.tc : Thread nD τ).loc main_arg1))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7))))
            (m ((c.tc : Thread nD τ).loc main_arg8)) (m ((c.tc : Thread nD τ).loc main_arg9))) := by
  unfold Value.res_main_v103
  rfl

/-! ## The two products at an index -/

/-- A left-half column of the side-by-side table is the feature projection's. -/
theorem hidden_left (x : FVec Ideal S100000x500 .f32) (t : FVec Ideal S100000x384 .f32) (wf : FVec Ideal S500x64 .f32)
    (bf : FVec Ideal S64 .f32) (wt : FVec Ideal S384x64 .f32) (bt : FVec Ideal S64 .f32) (p : Fin 100000) (j : Fin 64) :
    hidden x t wf bf wt bt (ix2 p (Cert.Folded.lo j)) = (∑ k : Fin 500, x (ix2 p k) * wf (ix2 k j)) + bf (ix1 j) := by
  unfold hidden
  rw [concatenate_pair_apply_left (t := S100000x128) (s₁ := S100000x64) (s₂ := S100000x64) (1 : Fin 2) _ _ concatenates_S100000x64_S100000x64_S100000x128_d1 (ix2 p (Cert.Folded.lo j)) rfl (ix2 p j : S100000x64.Idx)
    (fun b => by match b with | ⟨0, _⟩ => rfl | ⟨1, _⟩ => rfl),
    host_addRow, dotGeneral_eq_prod (a := 100000) (n := 500) (b := 64) dot_S100000x500_S500x64_S100000x64_1_0_0_1_n_n_wf dot_S100000x500_S500x64_S100000x64_1_0_0_1_n_n rfl]
  rfl

/-- A right-half column is the text projection's. -/
theorem hidden_right (x : FVec Ideal S100000x500 .f32) (t : FVec Ideal S100000x384 .f32) (wf : FVec Ideal S500x64 .f32)
    (bf : FVec Ideal S64 .f32) (wt : FVec Ideal S384x64 .f32) (bt : FVec Ideal S64 .f32) (p : Fin 100000) (j : Fin 64) :
    hidden x t wf bf wt bt (ix2 p (Cert.Folded.hi j)) = (∑ k : Fin 384, t (ix2 p k) * wt (ix2 k j)) + bt (ix1 j) := by
  unfold hidden
  rw [concatenate_pair_apply_right (t := S100000x128) (s₁ := S100000x64) (s₂ := S100000x64) (1 : Fin 2) _ _ concatenates_S100000x64_S100000x64_S100000x128_d1 (ix2 p (Cert.Folded.hi j)) rfl rfl (ix2 p j : S100000x64.Idx)
    (fun b hb => by match b with | ⟨0, _⟩ => rfl | ⟨1, _⟩ => exact absurd rfl hb)
    (by show j.val + 64 = 64 + j.val; omega),
    host_addRow, dotGeneral_eq_prod (a := 100000) (n := 384) (b := 64) dot_S100000x384_S384x64_S100000x64_1_0_0_1_n_n_wf dot_S100000x384_S384x64_S100000x64_1_0_0_1_n_n rfl]
  rfl

/-- The first product at (p, e): the 128-term sum splits at the seam of the two halves. -/
theorem firstProduct_apply (x : FVec Ideal S100000x500 .f32) (t : FVec Ideal S100000x384 .f32) (wf : FVec Ideal S500x64 .f32)
    (bf : FVec Ideal S64 .f32) (wt : FVec Ideal S384x64 .f32) (bt : FVec Ideal S64 .f32) (w1 : FVec Ideal S128x64 .f32)
    (p : Fin 100000) (e : Fin 64) :
    firstProduct x t wf bf wt bt w1 (ix2 p e)
      = (∑ j : Fin 64, ((∑ k : Fin 500, x (ix2 p k) * wf (ix2 k j)) + bf (ix1 j)) * w1 (ix2 (Cert.Folded.lo j) e))
        + (∑ j : Fin 64, ((∑ k : Fin 384, t (ix2 p k) * wt (ix2 k j)) + bt (ix1 j)) * w1 (ix2 (Cert.Folded.hi j) e)) := by
  unfold firstProduct
  rw [dotGeneral_eq_prod (a := 100000) (n := 128) (b := 64) dot_S100000x128_S128x64_S100000x64_1_0_0_1_n_n_wf dot_S100000x128_S128x64_S100000x64_1_0_0_1_n_n rfl,
    prod_apply, sum_halves]
  congr 1
  · exact Finset.sum_congr rfl fun j _ => congrArg (· * _) (hidden_left x t wf bf wt bt p j)
  · exact Finset.sum_congr rfl fun j _ => congrArg (· * _) (hidden_right x t wf bf wt bt p j)

/-- The second product is the plain product of the rectified table with w2. -/
theorem secondProduct_eq (g : FVec Ideal S100000x64 .f32) (b1 : FVec Ideal S64 .f32) (w2 : FVec Ideal S64x7 .f32) :
    secondProduct g b1 w2 = prod (biasRelu (a := 100000) (n := 64) g b1) w2 := by
  unfold secondProduct
  rw [host_biasRelu, dotGeneral_eq_prod (a := 100000) (n := 64) (b := 7) dot_S100000x64_S64x7_S100000x7_1_0_0_1_n_n_wf dot_S100000x64_S64x7_S100000x7_1_0_0_1_n_n rfl]

end Cert.ReferenceIdeal.RefValue

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«157000_j34102040330885_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.Finite.lean ====
/-
  From the precondition to finite entries.

  The precondition `finite_inputs` is the conjunction, over the ten float arguments, of "every entry x of the argument
  has |x| < +infinity": each conjunct is an and-reduction, over all axes, of the entrywise comparison of |x| with the
  +infinity word. Where the whole conjunction is 1 every conjunct is 1, so every compared entry passed its test, and
  an extended real whose absolute value is below +infinity is a real number. The seven arguments the first layer
  folds — the two feature tables, the two projection matrices with their biases, and the first convolution's weights —
  are the ones the proof needs finite.
-/
import proofs.«157000_j34102040330885_2_alg».proof.Proof.Gen.Pre_finite_inputs
import proofs.«157000_j34102040330885_2_alg».proof.Proof.LibFiniteTest
import Idealize.ShloMosaic.Lib.ReduceAll

noncomputable section

namespace Cert.Finite

open Idealize.ShloMosaic Idealize.ShloMosaic.ValueIdx Cert.LibERealSums Cert.LibFiniteTest
open Cert.Pre_finite_inputs Cert.Pre_finite_inputs.Facts

/-- One conjunct: where the and-reduction of the test "|v| < +inf" over all axes is 1, every entry of v is finite. -/
theorem entries_finite {S : Shape} {axes : List (Fin S.rank)} (v : FVec Ideal S .f32)
    (hb : S_.BroadcastsInDim S (![] : Fin 0 → Fin S.rank)) (hr : S.ReducesTo axes S_) (hu : 0 < S_.numel)
    (h : Host.reduce IntOp.andi (cmpf .olt (Host.absf v) (broadcastInDim S ![] hb (constant (F := Ideal) S_ .f32 0x7F800000#32)))
        (constantI S_ 1 1#1) hr hu ix0 = 1#1) (i : S.Idx) : IsFin (v i) :=
  isFin_of_test v hb i (Host.reduce_andi_all _ _ hr hu ix0 h i)

/-- Under the precondition the seven arguments of the first layer have only finite entries. -/
theorem of_pre (a0 : FVec Ideal S100000x500 .f32) (a1 : FVec Ideal S100000x384 .f32) (a2 : IVec S2x1280000 32)
    (a3 : FVec Ideal S500x64 .f32) (a4 : FVec Ideal S64 .f32) (a5 : FVec Ideal S384x64 .f32) (a6 : FVec Ideal S64 .f32)
    (a7 : FVec Ideal S128x64 .f32) (a8 : FVec Ideal S64 .f32) (a9 : FVec Ideal S64x7 .f32) (a10 : FVec Ideal S7 .f32)
    (h : fn (F := Ideal) a0 a1 a2 a3 a4 a5 a6 a7 a8 a9 a10 = fun _ => 1#1) :
    (∀ i, IsFin (a0 i)) ∧ (∀ i, IsFin (a1 i)) ∧ (∀ i, IsFin (a3 i)) ∧ (∀ i, IsFin (a4 i)) ∧ (∀ i, IsFin (a5 i))
      ∧ (∀ i, IsFin (a6 i)) ∧ (∀ i, IsFin (a7 i)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c0, c1⟩ := IntOp.andi_eq_one.1 h0
  exact ⟨entries_finite a0 _ _ _ c0, entries_finite a1 _ _ _ c1, entries_finite a3 _ _ _ c3, entries_finite a4 _ _ _ c4,
    entries_finite a5 _ _ _ c5, entries_finite a6 _ _ _ c6, entries_finite a7 _ _ _ c7⟩

end Cert.Finite

end
-- ==== Proof.LibFoldLaw.lean ====
/-
  Folding two dense layers into one, on finite extended reals.

  Let x be a row of n₁ numbers and t a row of n₂ numbers, WF an n₁ × m matrix and WT an n₂ × m matrix, BF and BT two
  rows of m numbers, and A, B two columns of m numbers. Then

      (x · (WF · A) + t · (WT · B)) + (BF · A + BT · B)  =  (x · WF + BF) · A + (t · WT + BT) · B.

  Over the reals this is associativity of the matrix product together with distributivity. On the extended reals both
  fail at the infinities (a product may be spread over a sum only when nothing infinite meets an opposite infinity), so
  the statement asks every entry to be finite, and the proof carries the identity over from the reals.
-/
import proofs.«157000_j34102040330885_2_alg».proof.Proof.LibERealSums
import Mathlib.Tactic.Ring

noncomputable section

open scoped BigOperators

namespace Cert.FoldLaw

open Cert.LibERealSums

/-- A finite sum of real numbers, each seen as an extended real, is the real sum seen as an extended real. -/
theorem coe_sum {ι : Type*} (s : Finset ι) (g : ι → ℝ) :
    (∑ l ∈ s, ((g l : ℝ) : EReal)) = ((∑ l ∈ s, g l : ℝ) : EReal) := by
  classical
  induction s using Finset.induction_on with
  | empty => simp
  | insert i s hi ih => rw [Finset.sum_insert hi, Finset.sum_insert hi, EReal.coe_add, ih]

/-- A row times (a matrix times a column) is (the row times the matrix) times the column, over the reals. -/
theorem real_assoc {n m : ℕ} (x : Fin n → ℝ) (w : Fin n → Fin m → ℝ) (a : Fin m → ℝ) :
    ∑ k, x k * ∑ j, w k j * a j = ∑ j, (∑ k, x k * w k j) * a j := by
  simp only [Finset.mul_sum, Finset.sum_mul]
  rw [Finset.sum_comm]
  exact Finset.sum_congr rfl fun j _ => Finset.sum_congr rfl fun k _ => by ring

/-- The folding identity over the reals. -/
theorem real_fold {n₁ n₂ m : ℕ} (x : Fin n₁ → ℝ) (t : Fin n₂ → ℝ) (wf : Fin n₁ → Fin m → ℝ) (wt : Fin n₂ → Fin m → ℝ)
    (bf bt a b : Fin m → ℝ) :
    ((∑ k, x k * ∑ j, wf k j * a j) + (∑ k, t k * ∑ j, wt k j * b j)) + ((∑ j, bf j * a j) + (∑ j, bt j * b j))
      = (∑ j, ((∑ k, x k * wf k j) + bf j) * a j) + (∑ j, ((∑ k, t k * wt k j) + bt j) * b j) := by
  simp only [add_mul, Finset.sum_add_distrib]
  rw [real_assoc x wf a, real_assoc t wt b]
  ring

/-- THE FOLDING IDENTITY on finite extended reals. -/
theorem fold {n₁ n₂ m : ℕ} (X : Fin n₁ → EReal) (T : Fin n₂ → EReal) (WF : Fin n₁ → Fin m → EReal)
    (WT : Fin n₂ → Fin m → EReal) (BF BT A B : Fin m → EReal)
    (hX : ∀ k, IsFin (X k)) (hT : ∀ k, IsFin (T k)) (hWF : ∀ k j, IsFin (WF k j)) (hWT : ∀ k j, IsFin (WT k j))
    (hBF : ∀ j, IsFin (BF j)) (hBT : ∀ j, IsFin (BT j)) (hA : ∀ j, IsFin (A j)) (hB : ∀ j, IsFin (B j)) :
    ((∑ k, X k * ∑ j, WF k j * A j) + (∑ k, T k * ∑ j, WT k j * B j)) + ((∑ j, BF j * A j) + (∑ j, BT j * B j))
      = (∑ j, ((∑ k, X k * WF k j) + BF j) * A j) + (∑ j, ((∑ k, T k * WT k j) + BT j) * B j) := by
  choose x hx using fun k => (hX k).exists_coe
  choose t ht using fun k => (hT k).exists_coe
  choose wf hwf using fun k j => (hWF k j).exists_coe
  choose wt hwt using fun k j => (hWT k j).exists_coe
  choose bf hbf using fun j => (hBF j).exists_coe
  choose bt hbt using fun j => (hBT j).exists_coe
  choose a ha using fun j => (hA j).exists_coe
  choose b hb using fun j => (hB j).exists_coe
  simp only [hx, ht, hwf, hwt, hbf, hbt, ha, hb, ← EReal.coe_mul, coe_sum, ← EReal.coe_add]
  exact congrArg _ (real_fold x t wf wt bf bt a b)

end Cert.FoldLaw

end
-- ==== Proof.Bridge.lean ====
/-
  The two dense layers of the kernel are the reference's.

  First layer. The kernel multiplies the feature tables by weights already folded with w1; the reference projects
  first, lays the two projections side by side and multiplies by w1. Entry by entry the two are the two sides of the
  folding identity, which holds on finite entries: this is where the precondition is used.
  Second layer. Both programs add the bias along the rows, take the larger of that and zero, and multiply by w2; the
  kernel reads the bias through a one-row matrix, the reference spreads it along the rows. No finiteness is needed.
-/
import proofs.«157000_j34102040330885_2_alg».proof.Proof.LibFoldLaw
import proofs.«157000_j34102040330885_2_alg».proof.Proof.Folded
import proofs.«157000_j34102040330885_2_alg».proof.Proof.Dense
import proofs.«157000_j34102040330885_2_alg».proof.Proof.RefValue

noncomputable section

namespace Cert.Bridge

open Idealize.ShloMosaic Idealize.ShloMosaic.ValueIdx
open Cert.Layers Cert.LibERealSums Cert.Folded Cert.Dense Cert.ReferenceIdeal.RefValue

/-- THE FIRST LAYER: with its weights folded, or in two steps — the same table when every entry is finite. -/
theorem fused_eq_firstProduct (x : (⟨2, ![100000, 500]⟩ : Shape).Idx → EReal) (t : (⟨2, ![100000, 384]⟩ : Shape).Idx → EReal)
    (wf : (⟨2, ![500, 64]⟩ : Shape).Idx → EReal) (bf : (⟨1, ![64]⟩ : Shape).Idx → EReal)
    (wt : (⟨2, ![384, 64]⟩ : Shape).Idx → EReal) (bt : (⟨1, ![64]⟩ : Shape).Idx → EReal)
    (w1 : (⟨2, ![128, 64]⟩ : Shape).Idx → EReal)
    (hx : ∀ i, IsFin (x i)) (ht : ∀ i, IsFin (t i)) (hwf : ∀ i, IsFin (wf i)) (hbf : ∀ i, IsFin (bf i))
    (hwt : ∀ i, IsFin (wt i)) (hbt : ∀ i, IsFin (bt i)) (hw1 : ∀ i, IsFin (w1 i)) :
    fused (a := 100000) x t (featWeights wf w1) (textWeights wt w1) (foldedBias bf bt w1) = firstProduct x t wf bf wt bt w1 := by
  funext i
  obtain ⟨p, e, rfl⟩ : ∃ (p : Fin 100000) (e : Fin 64), i = ix2 p e := ⟨i 0, i 1, eq_ix2 i⟩
  rw [firstProduct_apply]
  show (prod x (featWeights wf w1) (ix2 p e) + prod t (textWeights wt w1) (ix2 p e)) + foldedBias bf bt w1 (ix2 (0 : Fin 1) e) = _
  rw [prod_apply, prod_apply, foldedBias_apply]
  simp only [featWeights_apply, textWeights_apply]
  exact Cert.FoldLaw.fold (fun k => x (ix2 p k)) (fun k => t (ix2 p k)) (fun k j => wf (ix2 k j)) (fun k j => wt (ix2 k j))
    (fun j => bf (ix1 j)) (fun j => bt (ix1 j)) (fun j => w1 (ix2 (lo j) e)) (fun j => w1 (ix2 (hi j) e))
    (fun _ => hx _) (fun _ => ht _) (fun _ _ => hwf _) (fun _ _ => hwt _) (fun _ => hbf _) (fun _ => hbt _)
    (fun _ => hw1 _) (fun _ => hw1 _)

/-- THE SECOND LAYER: the kernel's, with the bias as a one-row matrix, is the reference's. -/
theorem rectified_eq_secondProduct (g : (⟨2, ![100000, 64]⟩ : Shape).Idx → EReal) (b1 : (⟨1, ![64]⟩ : Shape).Idx → EReal)
    (w2 : (⟨2, ![64, 7]⟩ : Shape).Idx → EReal) (h : (⟨1, ![64]⟩ : Shape).ShapeCasts ⟨2, ![1, 64]⟩) :
    rectified (a := 100000) g (shapeCast ⟨2, ![1, 64]⟩ b1 h) w2 = secondProduct g b1 w2 := by
  rw [secondProduct_eq]
  unfold rectified
  rw [biasReluRow_row]

end Cert.Bridge

end
-- ==== Proof.lean ====
/-
  A two-layer graph convolution over 100000 nodes and 1280000 edges: the kernel against the reference.

  The reference projects the node features (500 columns) and the text features (384 columns) to 64 columns each, lays
  the two side by side, multiplies by w1 (128 × 64), aggregates over the edges with the symmetric degree weights, adds
  b1 and takes the larger of that and zero, multiplies by w2 (64 × 7), aggregates again and adds b2. The kernel folds
  w1 into the two projections on the host and runs two dense kernels over blocks of 2000 rows: the first forms
  x · (w_feat · w1_top) + text_x · (w_text · w1_bottom) + (b_feat · w1_top + b_text · w1_bottom), the second
  max(agg + b1, 0) · w2; the two aggregations and the last bias are host operations, the same as the reference's.

  On the extended reals the two first layers agree when every parameter and feature is finite — associativity of the
  matrix product and distributivity, which fail at the infinities: the precondition gives exactly that — and from
  there on both programs apply the same functions to equal tables. The kernel's run and each dense kernel's output
  array are read off the generated frame; the reference's run is the generated one.
-/
import proofs.«157000_j34102040330885_2_alg».proof.Defs
import proofs.«157000_j34102040330885_2_alg».proof.Proof.Gen.Kernel
import proofs.«157000_j34102040330885_2_alg».proof.Proof.Gen.Kernel.Frame
import proofs.«157000_j34102040330885_2_alg».proof.Proof.Gen.KernelIdeal
import proofs.«157000_j34102040330885_2_alg».proof.Proof.Gen.KernelIdeal.Frame
import proofs.«157000_j34102040330885_2_alg».proof.Proof.Gen.ReferenceIdeal
import proofs.«157000_j34102040330885_2_alg».proof.Proof.Gen.ReferenceIdeal.Run
import proofs.«157000_j34102040330885_2_alg».proof.Proof.Gen.Pre_finite_inputs
import proofs.«157000_j34102040330885_2_alg».proof.Proof.KernelRun
import proofs.«157000_j34102040330885_2_alg».proof.Proof.KernelValue
import proofs.«157000_j34102040330885_2_alg».proof.Proof.RefValue
import proofs.«157000_j34102040330885_2_alg».proof.Proof.Finite
import proofs.«157000_j34102040330885_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result table: the kernel's
    result is the last layer over `rectified` over the first aggregation of `fused` of the arguments; the reference's is
    the same graph operations over its two products; the first layers agree on finite entries, the second always. -/
theorem algebraic : Cert.algebraic_KernelIdeal_ReferenceIdeal := by
  intro m ρ m' ρ' hpre hagree
  refine ⟨fun c => Cert.KernelIdeal.Whole.resultOf m c (Cert.KernelIdeal.Whole.hw1 m c),
    (θ_run Cert.KernelIdeal.defs _ _).mono (fun _ h c => ⟨(h c).1.trans (Cert.KernelIdeal.Whole.result m ρ c), (h c).2⟩)
      (Cert.KernelIdeal.Run.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  obtain ⟨f0, f1, f3, f4, f5, f6, f7⟩ := Cert.Finite.of_pre _ _ _ _ _ _ _ _ _ _ _ (hpre c)
  rw [Cert.ReferenceIdeal.RefValue.result_eq, a0, a1, a2, a3, a4, a5, a6, a7, a8, a9, a10]
  show _ = Cert.KernelIdeal.Whole.resultOf m c (Cert.KernelIdeal.Whole.hw1 m c)
  unfold Cert.KernelIdeal.Whole.resultOf Cert.KernelIdeal.Whole.hw1
  rw [Cert.Bridge.fused_eq_firstProduct _ _ _ _ _ _ _ f0 f1 f3 f4 f5 f6 f7, Cert.Bridge.rectified_eq_secondProduct]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
